-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S160000x512 : Shape := ⟨2, ![160000, 512]⟩
abbrev S10000x512 : Shape := ⟨2, ![10000, 512]⟩
abbrev S160000 : Shape := ⟨1, ![160000]⟩
abbrev S512x512 : Shape := ⟨2, ![512, 512]⟩
abbrev S512 : Shape := ⟨1, ![512]⟩
abbrev S_ : Shape := ⟨0, ![]⟩

class Facts : Prop where
  bcast_S_S160000x512 : S_.BroadcastsInDim S160000x512 (![] : Fin 0 → Fin S160000x512.rank)
  reducesTo_S160000x512_S_d0_1 : S160000x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg9 : FVec F S512 .f32) (main_arg10 : FVec F S512 .f32) (main_arg11 : FVec F S512 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg11
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg6 : FVec F S512x512 .f32) (main_arg7 : FVec F S512 .f32) (main_arg8 : FVec F S512x512 .f32) (main_arg9 : FVec F S512 .f32) (main_arg10 : FVec F S512 .f32) (main_arg11 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg6
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg8
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg9 main_arg10 main_arg11 main_v33

def fn {F : FTy → Type} [FloatOps F] (main_arg0 : FVec F S160000x512 .f32) (main_arg1 : FVec F S10000x512 .f32) (main_arg2 : IVec S160000 32) (main_arg3 : IVec S160000 32) (main_arg4 : FVec F S512x512 .f32) (main_arg5 : FVec F S512x512 .f32) (main_arg6 : FVec F S512x512 .f32) (main_arg7 : FVec F S512 .f32) (main_arg8 : FVec F S512x512 .f32) (main_arg9 : FVec F S512 .f32) (main_arg10 : FVec F S512 .f32) (main_arg11 : FVec F S512 .f32) : IVec S_ 1 :=
  let main_v0 : FVec F S160000x512 .f32 := Host.absf main_arg0
  let main_cst : FVec F S_ .f32 := constant S_ .f32 0x7F800000#32
  let main_v1 : FVec F S160000x512 .f32 := broadcastInDim S160000x512 ![] bcast_S_S160000x512 main_cst
  let main_v2 : IVec S160000x512 1 := cmpf .olt main_v0 main_v1
  let main_c : IVec S_ 1 := constantI S_ 1 1#1
  let main_v3 : IVec S_ 1 := (fun x v => Host.reduce IntOp.andi x v reducesTo_S160000x512_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_arg11 main_v13 main_v16
-- ==== Kernel.lean ====
abbrev S160000x512 : Shape := ⟨2, ![160000, 512]⟩
abbrev S10000x512 : Shape := ⟨2, ![10000, 512]⟩
abbrev S160000 : Shape := ⟨1, ![160000]⟩
abbrev S512x512 : Shape := ⟨2, ![512, 512]⟩
abbrev S512 : Shape := ⟨1, ![512]⟩
abbrev S1x512 : Shape := ⟨2, ![1, 512]⟩
abbrev S1000x512 : Shape := ⟨2, ![1000, 512]⟩
abbrev S_ : Shape := ⟨0, ![]⟩
abbrev S160000x1 : Shape := ⟨2, ![160000, 1]⟩
abbrev S1000 : Shape := ⟨1, ![1000]⟩
abbrev S1000x1 : Shape := ⟨2, ![1000, 1]⟩

abbrev nBuf : Space → Nat
  | .hbm => 45
  | .vmem => 22
  | .smem => 0
  | _ => 0

abbrev bufTy : (tb : Table) → Fin (tcTables nBuf tb) → BufTy
  | .hbm, ⟨0, _⟩ => ⟨S160000x512, .f32⟩
  | .hbm, ⟨1, _⟩ => ⟨S10000x512, .f32⟩
  | .hbm, ⟨2, _⟩ => ⟨S160000, .i32⟩
  | .hbm, ⟨3, _⟩ => ⟨S160000, .i32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x512, .f32⟩
  | .hbm, ⟨13, _⟩ => ⟨S512x512, .bf16⟩
  | .hbm, ⟨14, _⟩ => ⟨S512x512, .f32⟩
  | .hbm, ⟨15, _⟩ => ⟨S512x512, .bf16⟩
  | .hbm, ⟨16, _⟩ => ⟨S512x512, .f32⟩
  | .hbm, ⟨17, _⟩ => ⟨S512x512, .bf16⟩
  | .hbm, ⟨18, _⟩ => ⟨S512x512, .f32⟩
  | .hbm, ⟨19, _⟩ => ⟨S512x512, .bf16⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S10000x512, .f32⟩
  | .hbm, ⟨25, _⟩ => ⟨S10000x512, .f32⟩
  | .hbm, ⟨26, _⟩ => ⟨S_, .i32⟩
  | .hbm, ⟨27, _⟩ => ⟨S160000, .i32⟩
  | .hbm, ⟨28, _⟩ => ⟨S160000, .i1⟩
  | .hbm, ⟨29, _⟩ => ⟨S_, .i32⟩
  | .hbm, ⟨30, _⟩ => ⟨S160000, .i32⟩
  | .hbm, ⟨31, _⟩ => ⟨S160000, .i32⟩
  | .hbm, ⟨32, _⟩ => ⟨S160000, .i32⟩
  | .hbm, ⟨33, _⟩ => ⟨S160000x1, .i32⟩
  | .hbm, ⟨34, _⟩ => ⟨S160000x512, .f32⟩
  | .hbm, ⟨35, _⟩ => ⟨S_, .i32⟩
  | .hbm, ⟨36, _⟩ => ⟨S160000, .i32⟩
  | .hbm, ⟨37, _⟩ => ⟨S160000, .i1⟩
  | .hbm, ⟨38, _⟩ => ⟨S_, .i32⟩
  | .hbm, ⟨39, _⟩ => ⟨S160000, .i32⟩
  | .hbm, ⟨40, _⟩ => ⟨S160000, .i32⟩
  | .hbm, ⟨41, _⟩ => ⟨S160000, .i32⟩
  | .hbm, ⟨42, _⟩ => ⟨S160000x1, .i32⟩
  | .hbm, ⟨43, _⟩ => ⟨S160000x512, .f32⟩
  | .hbm, ⟨44, _⟩ => ⟨S160000x512, .f32⟩
  | .local _ .vmem, ⟨0, _⟩ => ⟨S1000x512, .f32⟩
  | .local _ .vmem, ⟨1, _⟩ => ⟨S1000x512, .f32⟩
  | .local _ .vmem, ⟨2, _⟩ => ⟨S512x512, .bf16⟩
  | .local _ .vmem, ⟨3, _⟩ => ⟨S512x512, .bf16⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1000x512, .f32⟩
  | .local _ .vmem, ⟨14, _⟩ => ⟨S512x512, .bf16⟩
  | .local _ .vmem, ⟨15, _⟩ => ⟨S512x512, .bf16⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1000x512, .f32⟩
  | .local _ .vmem, ⟨21, _⟩ => ⟨S1000x512, .f32⟩
  | _, _ => ⟨S160000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  transposes_S512x512_S512x512_1_0 : S512x512.Transposes [1, 0] S512x512
  bitsLt_bf16_f32 : FTy.bits .bf16 < FTy.bits .f32
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S_S160000 : S_.BroadcastsInDim S160000 (![] : Fin 0 → Fin S160000.rank)
  bcast_S160000_S160000x1_0 : S160000.BroadcastsInDim S160000x1 (![0] : Fin 1 → Fin S160000x1.rank)
  shapeCasts_S1000x512_S1000x512 : S1000x512.ShapeCasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  reduces_S1000x512_S1000 : S1000x512.Reduces [1] S1000
  shapeCasts_S1000_S1000x1 : S1000.ShapeCasts S1000x1
  broadcasts_S1000x1_S1000x512 : S1000x1.Broadcasts S1000x512
  dot_S1000x512_S512x512_S1000x512_1_0_0_1_n_n_wf : DotDims.WF S1000x512 S512x512 S1000x512 [1] [0] [0] [1] [] []
  gather_S10000x512_S160000x1_S160000x512_1_0_n_n_0_1_1512_wf : GatherDims.WF S10000x512 S160000x1 S160000x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S10000x512.size a
  hwx0_3 : ∀ i : grid0.Coords, EltTy.bits .f32 = 32 ∨ (Rect.block (s := S10000x512) S1000x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x512.size a ≤ S10000x512.size a
  hwx0_4 : ∀ i : grid0.Coords, EltTy.bits .f32 = 32 ∨ (Rect.block (s := S10000x512) S1000x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S160000x512.size a
  hwx1_0 : ∀ i : grid1.Coords, EltTy.bits .f32 = 32 ∨ (Rect.block (s := S160000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S160000x512.size a
  hwx1_1 : ∀ i : grid1.Coords, EltTy.bits .f32 = 32 ∨ (Rect.block (s := S160000x512) S1000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S160000x512.size a
  hwx1_2 : ∀ i : grid1.Coords, EltTy.bits .f32 = 32 ∨ (Rect.block (s := S160000x512) S1000x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x512.size a ≤ S160000x512.size a
  hwx1_9 : ∀ i : grid1.Coords, EltTy.bits .f32 = 32 ∨ (Rect.block (s := S160000x512) S1000x512.size (cc1_transform_9 i) (hinb1_9 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf

abbrev win0_0 : Pipeline.Window sig grid0 :=
  Pipeline.Window.ofSpec (Memref.whole main_arg1) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S1000x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S1000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27) S1000x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S160000x512 : Shape := ⟨2, ![160000, 512]⟩
abbrev S10000x512 : Shape := ⟨2, ![10000, 512]⟩
abbrev S160000 : Shape := ⟨1, ![160000]⟩
abbrev S512x512 : Shape := ⟨2, ![512, 512]⟩
abbrev S512 : Shape := ⟨1, ![512]⟩
abbrev S_ : Shape := ⟨0, ![]⟩
abbrev S160000x1 : Shape := ⟨2, ![160000, 1]⟩
abbrev S1x512 : Shape := ⟨2, ![1, 512]⟩

abbrev nBuf : Space → Nat
  | .hbm => 100
  | .vmem => 0
  | .smem => 0
  | _ => 0

abbrev bufTy : (tb : Table) → Fin (tcTables nBuf tb) → BufTy
  | .hbm, ⟨0, _⟩ => ⟨S160000x512, .f32⟩
  | .hbm, ⟨1, _⟩ => ⟨S10000x512, .f32⟩
  | .hbm, ⟨2, _⟩ => ⟨S160000, .i32⟩
  | .hbm, ⟨3, _⟩ => ⟨S160000, .i32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x512, .f32⟩
  | .hbm, ⟨13, _⟩ => ⟨S10000x512, .f32⟩
  | .hbm, ⟨14, _⟩ => ⟨S512x512, .f32⟩
  | .hbm, ⟨15, _⟩ => ⟨S10000x512, .f32⟩
  | .hbm, ⟨16, _⟩ => ⟨S512x512, .f32⟩
  | .hbm, ⟨17, _⟩ => ⟨S160000x512, .f32⟩
  | .hbm, ⟨18, _⟩ => ⟨S_, .i32⟩
  | .hbm, ⟨19, _⟩ => ⟨S160000, .i32⟩
  | .hbm, ⟨20, _⟩ => ⟨S160000, .i1⟩
  | .hbm, ⟨21, _⟩ => ⟨S_, .i32⟩
  | .hbm, ⟨22, _⟩ => ⟨S160000, .i32⟩
  | .hbm, ⟨23, _⟩ => ⟨S160000, .i32⟩
  | .hbm, ⟨24, _⟩ => ⟨S160000, .i32⟩
  | .hbm, ⟨25, _⟩ => ⟨S160000x1, .i32⟩
  | .hbm, ⟨26, _⟩ => ⟨S160000x512, .f32⟩
  | .hbm, ⟨27, _⟩ => ⟨S160000x512, .f32⟩
  | .hbm, ⟨28, _⟩ => ⟨S_, .i32⟩
  | .hbm, ⟨29, _⟩ => ⟨S160000, .i32⟩
  | .hbm, ⟨30, _⟩ => ⟨S160000, .i1⟩
  | .hbm, ⟨31, _⟩ => ⟨S_, .i32⟩
  | .hbm, ⟨32, _⟩ => ⟨S160000, .i32⟩
  | .hbm, ⟨33, _⟩ => ⟨S160000, .i32⟩
  | .hbm, ⟨34, _⟩ => ⟨S160000, .i32⟩
  | .hbm, ⟨35, _⟩ => ⟨S160000x1, .i32⟩
  | .hbm, ⟨36, _⟩ => ⟨S160000x512, .f32⟩
  | .hbm, ⟨37, _⟩ => ⟨S160000x512, .f32⟩
  | .hbm, ⟨38, _⟩ => ⟨S1x512, .f32⟩
  | .hbm, ⟨39, _⟩ => ⟨S160000x512, .f32⟩
  | .hbm, ⟨40, _⟩ => ⟨S160000x512, .f32⟩
  | .hbm, ⟨41, _⟩ => ⟨S160000x512, .f32⟩
  | .hbm, ⟨42, _⟩ => ⟨S160000x512, .f32⟩
  | .hbm, ⟨43, _⟩ => ⟨S_, .f32⟩
  | .hbm, ⟨44, _⟩ => ⟨S160000x512, .f32⟩
  | .hbm, ⟨45, _⟩ => ⟨S160000x512, .f32⟩
  | .hbm, ⟨46, _⟩ => ⟨S_, .f32⟩
  | .hbm, ⟨47, _⟩ => ⟨S160000x512, .f32⟩
  | .hbm, ⟨48, _⟩ => ⟨S160000x512, .f32⟩
  | .hbm, ⟨49, _⟩ => ⟨S160000x512, .f32⟩
  | .hbm, ⟨50, _⟩ => ⟨S512x512, .f32⟩
  | .hbm, ⟨51, _⟩ => ⟨S160000x512, .f32⟩
  | .hbm, ⟨52, _⟩ => ⟨S1x512, .f32⟩
  | .hbm, ⟨53, _⟩ => ⟨S160000x512, .f32⟩
  | .hbm, ⟨54, _⟩ => ⟨S160000x512, .f32⟩
  | .hbm, ⟨55, _⟩ => ⟨S_, .f32⟩
  | .hbm, ⟨56, _⟩ => ⟨S160000, .f32⟩
  | .hbm, ⟨57, _⟩ => ⟨S160000x1, .f32⟩
  | .hbm, ⟨58, _⟩ => ⟨S_, .f32⟩
  | .hbm, ⟨59, _⟩ => ⟨S160000x1, .f32⟩
  | .hbm, ⟨60, _⟩ => ⟨S160000x1, .f32⟩
  | .hbm, ⟨61, _⟩ => ⟨S_, .i32⟩
  | .hbm, ⟨62, _⟩ => ⟨S_, .f32⟩
  | .hbm, ⟨63, _⟩ => ⟨S160000, .f32⟩
  | .hbm, ⟨64, _⟩ => ⟨S160000x1, .f32⟩
  | .hbm, ⟨65, _⟩ => ⟨S_, .f32⟩
  | .hbm, ⟨66, _⟩ => ⟨S160000x1, .f32⟩
  | .hbm, ⟨67, _⟩ => ⟨S160000x1, .f32⟩
  | .hbm, ⟨68, _⟩ => ⟨S160000x512, .f32⟩
  | .hbm, ⟨69, _⟩ => ⟨S160000x512, .f32⟩
  | .hbm, ⟨70, _⟩ => ⟨S160000x512, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S160000, .f32⟩
  | .hbm, ⟨76, _⟩ => ⟨S160000x1, .f32⟩
  | .hbm, ⟨77, _⟩ => ⟨S160000x1, .f32⟩
  | .hbm, ⟨78, _⟩ => ⟨S160000x1, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S160000x1, .f32⟩
  | .hbm, ⟨84, _⟩ => ⟨S160000x1, .f32⟩
  | .hbm, ⟨85, _⟩ => ⟨S160000x512, .f32⟩
  | .hbm, ⟨86, _⟩ => ⟨S160000x512, .f32⟩
  | .hbm, ⟨87, _⟩ => ⟨S_, .f32⟩
  | .hbm, ⟨88, _⟩ => ⟨S160000x1, .f32⟩
  | .hbm, ⟨89, _⟩ => ⟨S160000x1, .f32⟩
  | .hbm, ⟨90, _⟩ => ⟨S160000x1, .f32⟩
  | .hbm, ⟨91, _⟩ => ⟨S160000x512, .f32⟩
  | .hbm, ⟨92, _⟩ => ⟨S160000x512, .f32⟩
  | .hbm, ⟨93, _⟩ => ⟨S1x512, .f32⟩
  | .hbm, ⟨94, _⟩ => ⟨S160000x512, .f32⟩
  | .hbm, ⟨95, _⟩ => ⟨S160000x512, .f32⟩
  | .hbm, ⟨96, _⟩ => ⟨S1x512, .f32⟩
  | .hbm, ⟨97, _⟩ => ⟨S160000x512, .f32⟩
  | .hbm, ⟨98, _⟩ => ⟨S160000x512, .f32⟩
  | .hbm, ⟨99, _⟩ => ⟨S160000x512, .f32⟩
  | _, _ => ⟨S160000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_c_4 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_cst_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_cst_1 : Ref sig .tc := ⟨.hbm, 72, rfl⟩
abbrev main_call1_v8 : Ref sig .tc := ⟨.hbm, 73, rfl⟩
abbrev main_call1_cst_2 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_cst_3 : Ref sig .tc := ⟨.hbm, 79, rfl⟩
abbrev main_call1_v13 : Ref sig .tc := ⟨.hbm, 80, rfl⟩
abbrev main_call1_cst_4 : Ref sig .tc := ⟨.hbm, 81, rfl⟩
abbrev main_call1_call0_v0 : Ref sig .tc := ⟨.hbm, 82, rfl⟩
abbrev main_call1_call0_v1 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_cst_5 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩

abbrev nD : Nat := 1
abbrev τ : Topo := Topo.v7x

variable {F : FTy → Type} [FloatOps F]

class Facts₀ : Prop where
  transposes_S512x512_S512x512_1_0 : S512x512.Transposes [1, 0] S512x512
  bcast_S_S160000 : S_.BroadcastsInDim S160000 (![] : Fin 0 → Fin S160000.rank)
  bcast_S160000_S160000x1_0 : S160000.BroadcastsInDim S160000x1 (![0] : Fin 1 → Fin S160000x1.rank)
  bcast_S512_S1x512_1 : S512.BroadcastsInDim S1x512 (![1] : Fin 1 → Fin S1x512.rank)
  bcast_S1x512_S160000x512_0_1 : S1x512.BroadcastsInDim S160000x512 (![0, 1] : Fin 2 → Fin S160000x512.rank)
  bcast_S_S160000x512 : S_.BroadcastsInDim S160000x512 (![] : Fin 0 → Fin S160000x512.rank)
  reducesTo_S160000x512_S160000_d1 : S160000x512.ReducesTo [1] S160000
  h_S_ : 0 < S_.numel
  bcast_S_S160000x1 : S_.BroadcastsInDim S160000x1 (![] : Fin 0 → Fin S160000x1.rank)
  bcast_S160000x1_S160000x512_0_1 : S160000x1.BroadcastsInDim S160000x512 (![0, 1] : Fin 2 → Fin S160000x512.rank)
  dot_S10000x512_S512x512_S10000x512_1_0_0_1_n_n_wf : DotDims.WF S10000x512 S512x512 S10000x512 [1] [0] [0] [1] [] []
  dot_S160000x512_S512x512_S160000x512_1_0_0_1_n_n_wf : DotDims.WF S160000x512 S512x512 S160000x512 [1] [0] [0] [1] [] []
  gather_S10000x512_S160000x1_S160000x512_1_0_n_n_0_1_1512_wf : GatherDims.WF S10000x512 S160000x1 S160000x512 [1] [0] [] [0] [] 1 ![1, 512]

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S160000x512_S512x512_S160000x512_1_0_0_1_n_n : DotDims S160000x512 S512x512 S160000x512 where
  lhsContracting := [1]
  rhsContracting := [0]
  lhsNonContracting := [0]
  rhsNonContracting := [1]
  lhsBatch := []
  rhsBatch := []
  wf := dot_S160000x512_S512x512_S160000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf

class Facts : Prop extends Facts₀ where

variable [Facts]
-- ==== Proof.NodeProjArray.lean ====
/-
  The node-projection region's two result arrays as whole-array functions.

  The region walks the 10000 node rows in ten blocks of 1000 rows; at block `t` it multiplies rows
  `1000 t … 1000 t + 999` of the node features by a whole 512 × 512 weight and writes the product back to the same
  rows of a result array. The blocks tile the array, so after the region each result array is, at `(n, j)`, the sum
  over `k` of `nfeat (n, k) · W (k, j)` — for the first result with the first weight the region was given, for the
  second with the second.
-/
import proofs.«123910_j14027363189335_2_alg».proof.Proof.Gen.KernelIdeal.Frame
import Idealize.ShloMosaic.Lib.Pipeline.Value
import Idealize.ShloMosaic.Lib.ValueIdx

set_option maxRecDepth 16384

noncomputable section

namespace Cert.KernelIdeal.NodeProj

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the node features with a weight, entry `(n, j)`: `Σ_k x (n, k) · W (k, j)`. -/
def prod (x : S10000x512.Idx → EReal) (W : S512x512.Idx → EReal) : S10000x512.Idx → EReal :=
  fun i => ∑ k : Fin 512, x (ix2 (i 0) k) * W (ix2 k (i 1))

/-- What a body's stored value must be for a result array to be the product: entry `(p, q)` of the stored block is
    the sum over `k` of the feature block's `(p, k)` times the weight's `(k, q)`. -/
def StoresProduct (pay : Vec Ideal S1000x512 .f32 → Vec Ideal S512x512 .bf16 → FVec Ideal S1000x512 .f32) : Prop :=
  ∀ (x0 : Vec Ideal S1000x512 .f32) (x1 : Vec Ideal S512x512 .bf16) (p : Fin 1000) (q : Fin 512),
    pay x0 x1 (ix2 p q) = ∑ k : Fin 512, x0 (ix2 p k) * x1 (ix2 k q)

/-- The printed index maps over the ten points: the row-blocked windows sit at block `(t, 0)`, the weights at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of the feature block at point `t` is row `1000 t + p` of the array. -/
theorem feat_block (c : Dev nD) (t : Fin cfg0.N) (p : Fin 1000) (k : Fin 512) (i : S10000x512.Idx)
    (hi : (i 0).val = t.val * 1000 + p.val) :
    iblk0 V c 0 t (ix2 p k) = (V c main_arg1 : S10000x512.Idx → EReal) (ix2 (i 0) k) := by
  obtain ⟨e0, e1, -⟩ := idx_facts t
  unfold iblk0
  rw [View.read_apply]
  show (V c main_arg1 : S10000x512.Idx → EReal) _ = _
  refine congrArg _ (funext fun a => Fin.ext ?_)
  match a with
  | ⟨0, _⟩ => show win0_0.index t (0 : Fin 2) * 1000 + 1 * p.val = (i 0).val; rw [e0, hi]; omega
  | ⟨1, _⟩ => show win0_0.index t (1 : Fin 2) * 512 + 1 * k.val = k.val; rw [e1]; omega

/-- The first weight's block at any point is the whole weight. -/
theorem w1_block (c : Dev nD) (t : Fin cfg0.N) (k q : Fin 512) :
    iblk0 V c 1 t (ix2 k q) = (V c main_v3 : S512x512.Idx → EReal) (ix2 k q) := by
  obtain ⟨-, -, e0, e1, -⟩ := idx_facts t
  unfold iblk0
  rw [View.read_apply]
  show (V c main_v3 : S512x512.Idx → EReal) _ = _
  refine congrArg _ (funext fun a => Fin.ext ?_)
  match a with
  | ⟨0, _⟩ => show win0_1.index t (0 : Fin 2) * 512 + 1 * k.val = k.val; rw [e0]; omega
  | ⟨1, _⟩ => show win0_1.index t (1 : Fin 2) * 512 + 1 * q.val = q.val; rw [e1]; omega

/-- The second weight's block at any point is the whole weight. -/
theorem w2_block (c : Dev nD) (t : Fin cfg0.N) (k q : Fin 512) :
    iblk0 V c 2 t (ix2 k q) = (V c main_v5 : S512x512.Idx → EReal) (ix2 k q) := by
  obtain ⟨-, -, -, -, e0, e1, -⟩ := idx_facts t
  unfold iblk0
  rw [View.read_apply]
  show (V c main_v5 : S512x512.Idx → EReal) _ = _
  refine congrArg _ (funext fun a => Fin.ext ?_)
  match a with
  | ⟨0, _⟩ => show win0_2.index t (0 : Fin 2) * 512 + 1 * k.val = k.val; rw [e0]; omega
  | ⟨1, _⟩ => show win0_2.index t (1 : Fin 2) * 512 + 1 * q.val = q.val; rw [e1]; omega

/-- What point `t` writes back to the first result: block `t` of the product with the first weight. -/
theorem flushed3_eq (hbody : StoresProduct (k0_pay2 (F := Ideal))) (c : Dev nD) (t : Fin cfg0.N) :
    (dat0 V c).flushed 3 t = ((cfg0.win 3).blk t).view.read (Elt Ideal)
      (prod (V c main_arg1 : S10000x512.Idx → EReal) (V c main_v3 : S512x512.Idx → EReal)) := by
  show (cfg0.win 3).cut (grid0.coords t) ((dat0 V c).after 3 t) = _
  rw [after0_3]
  unfold out0_3
  rw [View.canon_unit_zero hz]
  simp only [View.ld_unit_zero (S := S1000x512) hz, View.ld_unit_zero (S := S512x512) hz]
  obtain ⟨-, -, -, -, -, -, e0, e1, -⟩ := idx_facts t
  funext y
  obtain ⟨p, q, rfl⟩ : ∃ (p : Fin 1000) (q : Fin 512), y = ix2 p q := ⟨y 0, y 1, eq_ix2 y⟩
  refine (hbody _ _ p q).trans ?_
  rw [View.read_apply]
  unfold prod
  have hrow : ((((cfg0.win 3).blk t).view.emb (ix2 p q)) 0).val = t.val * 1000 + p.val := by
    show win0_3.index t (0 : Fin 2) * 1000 + 1 * p.val = _; rw [e0]; omega
  have hcol : (((cfg0.win 3).blk t).view.emb (ix2 p q)) 1 = q := by
    apply Fin.ext; show win0_3.index t (1 : Fin 2) * 512 + 1 * q.val = q.val; rw [e1]; omega
  refine Finset.sum_congr rfl fun k _ => ?_
  rw [feat_block V c t p k _ hrow, w1_block V c t k q, hcol]

/-- What point `t` writes back to the second result: block `t` of the product with the second weight. -/
theorem flushed4_eq (hbody : StoresProduct (k0_pay3 (F := Ideal))) (c : Dev nD) (t : Fin cfg0.N) :
    (dat0 V c).flushed 4 t = ((cfg0.win 4).blk t).view.read (Elt Ideal)
      (prod (V c main_arg1 : S10000x512.Idx → EReal) (V c main_v5 : S512x512.Idx → EReal)) := by
  show (cfg0.win 4).cut (grid0.coords t) ((dat0 V c).after 4 t) = _
  rw [after0_4]
  unfold out0_4
  rw [View.canon_unit_zero hz]
  simp only [View.ld_unit_zero (S := S1000x512) hz, View.ld_unit_zero (S := S512x512) hz]
  obtain ⟨-, -, -, -, -, -, -, -, e0, e1⟩ := idx_facts t
  funext y
  obtain ⟨p, q, rfl⟩ : ∃ (p : Fin 1000) (q : Fin 512), y = ix2 p q := ⟨y 0, y 1, eq_ix2 y⟩
  refine (hbody _ _ p q).trans ?_
  rw [View.read_apply]
  unfold prod
  have hrow : ((((cfg0.win 4).blk t).view.emb (ix2 p q)) 0).val = t.val * 1000 + p.val := by
    show win0_4.index t (0 : Fin 2) * 1000 + 1 * p.val = _; rw [e0]; omega
  have hcol : (((cfg0.win 4).blk t).view.emb (ix2 p q)) 1 = q := by
    apply Fin.ext; show win0_4.index t (1 : Fin 2) * 512 + 1 * q.val = q.val; rw [e1]; omega
  refine Finset.sum_congr rfl fun k _ => ?_
  rw [feat_block V c t p k _ hrow, w2_block V c t k q, hcol]

/-- An index of the first result is in point `t`'s block iff each coordinate is in the block's range. -/
theorem mem_blk3 (t : Fin cfg0.N) (i : S10000x512.Idx) :
    i ∈ ((cfg0.win 3).blk t).view.set ↔ ∀ a : Fin 2, win0_3.index t a * S1000x512.size a ≤ (i a).val ∧ (i a).val < win0_3.index t a * S1000x512.size a + S1000x512.size a := by
  show i ∈ ((View.whole main_v12_0).slice (win0_3.rect t)).set ↔ _
  rw [View.set_slice_whole, Rect.mem_set_unit]
  exact Iff.rfl

theorem mem_blk4 (t : Fin cfg0.N) (i : S10000x512.Idx) :
    i ∈ ((cfg0.win 4).blk t).view.set ↔ ∀ a : Fin 2, win0_4.index t a * S1000x512.size a ≤ (i a).val ∧ (i a).val < win0_4.index t a * S1000x512.size a + S1000x512.size a := by
  show i ∈ ((View.whole main_v12_1).slice (win0_4.rect t)).set ↔ _
  rw [View.set_slice_whole, Rect.mem_set_unit]
  exact Iff.rfl

/-- Row `n` lies in block `n / 1000`. -/
theorem cover3 (i : S10000x512.Idx) : ∃ t : Fin cfg0.N, (cfg0.win 3).flush t = true ∧ i ∈ ((cfg0.win 3).blk t).view.set := by
  have hi0 : (i 0).val < 10000 := (i 0).isLt
  have hi1 : (i 1).val < 512 := (i 1).isLt
  have hN : cfg0.N = 10 := N_0
  refine ⟨⟨(i 0).val / 1000, by rw [hN]; omega⟩, flush0_3 _, ?_⟩
  rw [mem_blk3]
  obtain ⟨-, -, -, -, -, -, e0, e1, -⟩ := idx_facts ⟨(i 0).val / 1000, by rw [hN]; omega⟩
  intro a
  match a with
  | ⟨0, _⟩ => show win0_3.index _ (0 : Fin 2) * 1000 ≤ (i 0).val ∧ (i 0).val < win0_3.index _ (0 : Fin 2) * 1000 + 1000; rw [e0]; show (i 0).val / 1000 * 1000 ≤ (i 0).val ∧ (i 0).val < (i 0).val / 1000 * 1000 + 1000; omega
  | ⟨1, _⟩ => show win0_3.index _ (1 : Fin 2) * 512 ≤ (i 1).val ∧ (i 1).val < win0_3.index _ (1 : Fin 2) * 512 + 512; rw [e1]; omega

theorem cover4 (i : S10000x512.Idx) : ∃ t : Fin cfg0.N, (cfg0.win 4).flush t = true ∧ i ∈ ((cfg0.win 4).blk t).view.set := by
  have hi0 : (i 0).val < 10000 := (i 0).isLt
  have hi1 : (i 1).val < 512 := (i 1).isLt
  have hN : cfg0.N = 10 := N_0
  refine ⟨⟨(i 0).val / 1000, by rw [hN]; omega⟩, flush0_4 _, ?_⟩
  rw [mem_blk4]
  obtain ⟨-, -, -, -, -, -, -, -, e0, e1⟩ := idx_facts ⟨(i 0).val / 1000, by rw [hN]; omega⟩
  intro a
  match a with
  | ⟨0, _⟩ => show win0_4.index _ (0 : Fin 2) * 1000 ≤ (i 0).val ∧ (i 0).val < win0_4.index _ (0 : Fin 2) * 1000 + 1000; rw [e0]; show (i 0).val / 1000 * 1000 ≤ (i 0).val ∧ (i 0).val < (i 0).val / 1000 * 1000 + 1000; omega
  | ⟨1, _⟩ => show win0_4.index _ (1 : Fin 2) * 512 ≤ (i 1).val ∧ (i 1).val < win0_4.index _ (1 : Fin 2) * 512 + 512; rw [e1]; omega

/-- After the region the first result array is the product with the first weight. -/
theorem final3 (hbody : StoresProduct (k0_pay2 (F := Ideal))) (c : Dev nD) : (dat0 V c).arrAt 3 cfg0.N
    = prod (V c main_arg1 : S10000x512.Idx → EReal) (V c main_v3 : S512x512.Idx → EReal) :=
  (dat0 V c).arrAt_eq_of_cover 3 _ (fun t _ => flushed3_eq V hbody c t) cover3

/-- After the region the second result array is the product with the second weight. -/
theorem final4 (hbody : StoresProduct (k0_pay3 (F := Ideal))) (c : Dev nD) : (dat0 V c).arrAt 4 cfg0.N
    = prod (V c main_arg1 : S10000x512.Idx → EReal) (V c main_v5 : S512x512.Idx → EReal) :=
  (dat0 V c).arrAt_eq_of_cover 4 _ (fun t _ => flushed4_eq V hbody c t) cover4

end Cert.KernelIdeal.NodeProj

end
-- ==== Proof.EdgeSpec.lean ====
/-
  The edge update of one message-passing block, row by row, on the extended reals.

  For one edge the inputs are its feature row `x`, the two gathered node projections `ps`, `pd` (rows of
  `nfeat · W_sᵀ` and `nfeat · W_dᵀ` at the edge's end points), the weights `We`, `W2` as the contractions
  consume them (entry `(k, j)`: input coordinate `k`, output coordinate `j`), and the bias, scale and shift rows.
  The row's new value is

      x + LayerNorm (silu (x · We + ps + pd + b1) · W2 + b2) · g + b

  with the mean and the variance taken over the row's 512 entries as sums divided by the literal 512, the
  variance shifted by the literal 1e-5 before the reciprocal square root. Every sum is kept in the order and the
  grouping written here: both programs compute exactly these terms, so no law of the extended reals is needed
  beyond reading each operation entry by entry.
-/
import Idealize.ShloMosaic.PureOps.Ideal
import Idealize.ShloMosaic.Lib.ValueIdx

noncomputable section

namespace Cert.EdgeMlp

open Idealize.ShloMosaic Idealize.ShloMosaic.ValueIdx

/-- A row of 512 extended reals. -/
abbrev Row := Fin 512 → EReal
/-- A 512 × 512 weight as a contraction consumes it: entry `(k, j)` multiplies input coordinate `k` into output `j`. -/
abbrev Mat := (⟨2, ![512, 512]⟩ : Shape).Idx → EReal

/-- The row `x` times the matrix `W`: coordinate `j` is `Σ_k x_k · W_{k j}`. -/
def lin (x : Row) (W : Mat) : Row := fun j => ∑ k : Fin 512, x k * W (ix2 k j)

/-- The first layer before its activation: `x · We + ps + pd + b1`, summed left to right. -/
def hidden (x ps pd : Row) (We : Mat) (b1 : Row) : Row := fun j => lin x We j + ps j + pd j + b1 j

/-- `silu`: each entry times its logistic. -/
def act (h : Row) : Row := fun j => h j * Ideal.logistic (h j)

/-- The second layer: `s · W2 + b2`. -/
def affine (s : Row) (W2 : Mat) (b2 : Row) : Row := fun j => lin s W2 j + b2 j

/-- The literal 512 both programs divide by. -/
def c512 : EReal := Ideal.ofBits .f32 0x44000000#32
/-- The literal 1e-5 (as an f32) both programs add to the variance. -/
def cEps : EReal := Ideal.ofBits .f32 0x3727C5AC#32

/-- The row's mean: its sum over 512. -/
def mean (y : Row) : EReal := Ideal.div (∑ j : Fin 512, y j) c512
/-- The row minus its mean. -/
def centred (y : Row) : Row := fun j => y j - mean y
/-- The mean of the squares of the centred row. -/
def variance (y : Row) : EReal := Ideal.div (∑ j : Fin 512, centred y j * centred y j) c512
/-- Layer normalisation with scale `g` and shift `b`. -/
def normed (y g b : Row) : Row := fun j => centred y j * Ideal.rsqrt (variance y + cEps) * g j + b j

/-- One edge's new feature row. -/
def rowOut (x ps pd : Row) (We W2 : Mat) (b1 b2 g b : Row) : Row :=
  fun j => normed (affine (act (hidden x ps pd We b1)) W2 b2) g b j + x j

end Cert.EdgeMlp

end
-- ==== Proof.EdgeArray.lean ====
/-
  The edge region's result array as one whole-array function.

  The region walks the 160000 edge rows in 160 blocks of 1000 rows. At block `t` it reads rows
  `1000 t … 1000 t + 999` of the edge features and of the two gathered projection arrays, the two whole weights and
  the four whole `[1, 512]` rows (two biases, scale, shift), computes every row's update, and writes the 1000 new
  rows back to the same rows of the result. The blocks tile the result, so after the region entry `(e, j)` of the
  result is coordinate `j` of the row update of edge `e`.
-/
import proofs.«123910_j14027363189335_2_alg».proof.Proof.Gen.KernelIdeal.Frame
import proofs.«123910_j14027363189335_2_alg».proof.Proof.EdgeSpec
import Idealize.ShloMosaic.Lib.Pipeline.Value
import Idealize.ShloMosaic.Lib.ValueIdx

set_option maxRecDepth 16384

noncomputable section

namespace Cert.KernelIdeal.EdgeArray

open Idealize.ShloMosaic Idealize.ShloMosaic.TcCoe Idealize.ShloMosaic.ValueIdx Idealize.SL.Sem
open Idealize.ShloMosaic.Pipeline (Dat)
open Cert.KernelIdeal Cert.KernelIdeal.Gen Cert.EdgeMlp

variable (V : (c : Dev nD) → (b : Ref sig .tc) → Buf (Elt Ideal) ((c : Thread nD τ).loc b))

theorem hz : (![0, 0] : Fin 2 → Nat) = fun _ => 0 := funext fun a => by fin_cases a <;> rfl

/-- Every edge row updated: entry `(e, j)` is coordinate `j` of the update of row `e`, the bias, scale and shift rows
    given as `[1, 512]` arrays. -/
def edgeOut (x sg dg : S160000x512.Idx → EReal) (We W2 : S512x512.Idx → EReal) (b1 b2 g b : S1x512.Idx → EReal) :
    S160000x512.Idx → EReal :=
  fun i => rowOut (fun k => x (ix2 (i 0) k)) (fun k => sg (ix2 (i 0) k)) (fun k => dg (ix2 (i 0) k)) We W2
    (fun k => b1 (ix2 (0 : Fin 1) k)) (fun k => b2 (ix2 (0 : Fin 1) k)) (fun k => g (ix2 (0 : Fin 1) k))
    (fun k => b (ix2 (0 : Fin 1) k)) (i 1)

/-- The printed index maps over the 160 points: the row-blocked windows sit at block `(t, 0)`, the rest at `(0, 0)`. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-- Row `p` of the edge-feature block at point `t` is row `1000 t + p` of the array. -/
theorem rows0 (c : Dev nD) (t : Fin cfg1.N) (p : Fin 1000) (k : Fin 512) (e : Fin 160000)
    (hi : e.val = t.val * 1000 + p.val) :
    iblk1 V c 0 t (ix2 p k) = (V c main_arg0 : S160000x512.Idx → EReal) (ix2 e k) := by
  obtain ⟨⟨e0, e1⟩, -⟩ := idx_facts t
  unfold iblk1
  rw [View.read_apply]
  show (V c main_arg0 : S160000x512.Idx → EReal) _ = _
  refine congrArg _ (funext fun a => Fin.ext ?_)
  match a with
  | ⟨0, _⟩ => show win1_0.index t (0 : Fin 2) * 1000 + 1 * p.val = e.val; rw [e0, hi]; omega
  | ⟨1, _⟩ => show win1_0.index t (1 : Fin 2) * 512 + 1 * k.val = k.val; rw [e1]; omega

/-- The same for the first gathered projection. -/
theorem rows1 (c : Dev nD) (t : Fin cfg1.N) (p : Fin 1000) (k : Fin 512) (e : Fin 160000)
    (hi : e.val = t.val * 1000 + p.val) :
    iblk1 V c 1 t (ix2 p k) = (V c main_v19 : S160000x512.Idx → EReal) (ix2 e k) := by
  obtain ⟨-, ⟨e0, e1⟩, -⟩ := idx_facts t
  unfold iblk1
  rw [View.read_apply]
  show (V c main_v19 : S160000x512.Idx → EReal) _ = _
  refine congrArg _ (funext fun a => Fin.ext ?_)
  match a with
  | ⟨0, _⟩ => show win1_1.index t (0 : Fin 2) * 1000 + 1 * p.val = e.val; rw [e0, hi]; omega
  | ⟨1, _⟩ => show win1_1.index t (1 : Fin 2) * 512 + 1 * k.val = k.val; rw [e1]; omega

/-- The same for the second gathered projection. -/
theorem rows2 (c : Dev nD) (t : Fin cfg1.N) (p : Fin 1000) (k : Fin 512) (e : Fin 160000)
    (hi : e.val = t.val * 1000 + p.val) :
    iblk1 V c 2 t (ix2 p k) = (V c main_v26 : S160000x512.Idx → EReal) (ix2 e k) := by
  obtain ⟨-, -, ⟨e0, e1⟩, -⟩ := idx_facts t
  unfold iblk1
  rw [View.read_apply]
  show (V c main_v26 : S160000x512.Idx → EReal) _ = _
  refine congrArg _ (funext fun a => Fin.ext ?_)
  match a with
  | ⟨0, _⟩ => show win1_2.index t (0 : Fin 2) * 1000 + 1 * p.val = e.val; rw [e0, hi]; omega
  | ⟨1, _⟩ => show win1_2.index t (1 : Fin 2) * 512 + 1 * k.val = k.val; rw [e1]; omega

/-- The first weight's block at any point is the whole weight. -/
theorem whole3 (c : Dev nD) (t : Fin cfg1.N) : iblk1 V c 3 t = (V c main_v1 : S512x512.Idx → EReal) := by
  obtain ⟨-, -, -, ⟨e0, e1⟩, -⟩ := idx_facts t
  funext y
  unfold iblk1
  rw [View.read_apply]
  show (V c main_v1 : S512x512.Idx → EReal) _ = _
  refine congrArg _ (funext fun a => Fin.ext ?_)
  match a with
  | ⟨0, _⟩ => show win1_3.index t (0 : Fin 2) * 512 + 1 * (y 0).val = (y 0).val; rw [e0]; omega
  | ⟨1, _⟩ => show win1_3.index t (1 : Fin 2) * 512 + 1 * (y 1).val = (y 1).val; rw [e1]; omega

/-- The second weight's block at any point is the whole weight. -/
theorem whole4 (c : Dev nD) (t : Fin cfg1.N) : iblk1 V c 4 t = (V c main_v7 : S512x512.Idx → EReal) := by
  obtain ⟨-, -, -, -, ⟨e0, e1⟩, -⟩ := idx_facts t
  funext y
  unfold iblk1
  rw [View.read_apply]
  show (V c main_v7 : S512x512.Idx → EReal) _ = _
  refine congrArg _ (funext fun a => Fin.ext ?_)
  match a with
  | ⟨0, _⟩ => show win1_4.index t (0 : Fin 2) * 512 + 1 * (y 0).val = (y 0).val; rw [e0]; omega
  | ⟨1, _⟩ => show win1_4.index t (1 : Fin 2) * 512 + 1 * (y 1).val = (y 1).val; rw [e1]; omega

/-- Each `[1, 512]` row's block at any point is the whole row. -/
theorem whole5 (c : Dev nD) (t : Fin cfg1.N) : iblk1 V c 5 t = (V c main_v8 : S1x512.Idx → EReal) := by
  obtain ⟨-, -, -, -, -, ⟨e0, e1⟩, -⟩ := idx_facts t
  funext y
  unfold iblk1
  rw [View.read_apply]
  show (V c main_v8 : S1x512.Idx → EReal) _ = _
  refine congrArg _ (funext fun a => Fin.ext ?_)
  match a with
  | ⟨0, _⟩ => show win1_5.index t (0 : Fin 2) * 1 + 1 * (y 0).val = (y 0).val; rw [e0]; omega
  | ⟨1, _⟩ => show win1_5.index t (1 : Fin 2) * 512 + 1 * (y 1).val = (y 1).val; rw [e1]; omega

theorem whole6 (c : Dev nD) (t : Fin cfg1.N) : iblk1 V c 6 t = (V c main_v9 : S1x512.Idx → EReal) := by
  obtain ⟨-, -, -, -, -, -, ⟨e0, e1⟩, -⟩ := idx_facts t
  funext y
  unfold iblk1
  rw [View.read_apply]
  show (V c main_v9 : S1x512.Idx → EReal) _ = _
  refine congrArg _ (funext fun a => Fin.ext ?_)
  match a with
  | ⟨0, _⟩ => show win1_6.index t (0 : Fin 2) * 1 + 1 * (y 0).val = (y 0).val; rw [e0]; omega
  | ⟨1, _⟩ => show win1_6.index t (1 : Fin 2) * 512 + 1 * (y 1).val = (y 1).val; rw [e1]; omega

theorem whole7 (c : Dev nD) (t : Fin cfg1.N) : iblk1 V c 7 t = (V c main_v10 : S1x512.Idx → EReal) := by
  obtain ⟨-, -, -, -, -, -, -, ⟨e0, e1⟩, -⟩ := idx_facts t
  funext y
  unfold iblk1
  rw [View.read_apply]
  show (V c main_v10 : S1x512.Idx → EReal) _ = _
  refine congrArg _ (funext fun a => Fin.ext ?_)
  match a with
  | ⟨0, _⟩ => show win1_7.index t (0 : Fin 2) * 1 + 1 * (y 0).val = (y 0).val; rw [e0]; omega
  | ⟨1, _⟩ => show win1_7.index t (1 : Fin 2) * 512 + 1 * (y 1).val = (y 1).val; rw [e1]; omega

theorem whole8 (c : Dev nD) (t : Fin cfg1.N) : iblk1 V c 8 t = (V c main_v11 : S1x512.Idx → EReal) := by
  obtain ⟨-, -, -, -, -, -, -, -, ⟨e0, e1⟩, -⟩ := idx_facts t
  funext y
  unfold iblk1
  rw [View.read_apply]
  show (V c main_v11 : S1x512.Idx → EReal) _ = _
  refine congrArg _ (funext fun a => Fin.ext ?_)
  match a with
  | ⟨0, _⟩ => show win1_8.index t (0 : Fin 2) * 1 + 1 * (y 0).val = (y 0).val; rw [e0]; omega
  | ⟨1, _⟩ => show win1_8.index t (1 : Fin 2) * 512 + 1 * (y 1).val = (y 1).val; rw [e1]; omega

/-- The updated rows at an index with row coordinate `e` and column coordinate `q`. -/
theorem edgeOut_at (x sg dg : S160000x512.Idx → EReal) (We W2 : S512x512.Idx → EReal) (b1 b2 g b : S1x512.Idx → EReal)
    (E : S160000x512.Idx) (e : Fin 160000) (q : Fin 512) (h0 : (E 0).val = e.val) (h1 : (E 1).val = q.val) :
    edgeOut x sg dg We W2 b1 b2 g b E
      = rowOut (fun k => x (ix2 e k)) (fun k => sg (ix2 e k)) (fun k => dg (ix2 e k)) We W2
          (fun k => b1 (ix2 (0 : Fin 1) k)) (fun k => b2 (ix2 (0 : Fin 1) k)) (fun k => g (ix2 (0 : Fin 1) k))
          (fun k => b (ix2 (0 : Fin 1) k)) q := by
  obtain rfl : E = ix2 e q := funext fun a => Fin.ext (by match a with | ⟨0, _⟩ => exact h0 | ⟨1, _⟩ => exact h1)
  rfl

/-- What the edge body must store for the result to be the updated rows: entry `(p, q)` of the stored block is
    coordinate `q` of the update of the blocks' row `p`. -/
def StoresRowUpdate : Prop :=
  ∀ (x0 x1 x2 : Vec Ideal S1000x512 .f32) (x3 x4 : Vec Ideal S512x512 .bf16) (x5 x6 x7 x8 : Vec Ideal S1x512 .f32)
    (p : Fin 1000) (q : Fin 512),
    k1_pay1 (F := Ideal) x0 (k1_pay2 x0 x3 x1 x2 x5 x4 x6) (k1_pay3 x0 x3 x1 x2 x5 x4 x6) x7 x8 (ix2 p q)
      = rowOut (fun k => x0 (ix2 p k)) (fun k => x1 (ix2 p k)) (fun k => x2 (ix2 p k)) x3 x4
          (fun k => x5 (ix2 (0 : Fin 1) k)) (fun k => x6 (ix2 (0 : Fin 1) k)) (fun k => x7 (ix2 (0 : Fin 1) k))
          (fun k => x8 (ix2 (0 : Fin 1) k)) q

/-- What point `t` writes back: block `t` of the updated rows. -/
theorem flushed9_eq (hbody : StoresRowUpdate) (c : Dev nD) (t : Fin cfg1.N) :
    (dat1 V c).flushed 9 t = ((cfg1.win 9).blk t).view.read (Elt Ideal)
      (edgeOut (V c main_arg0 : S160000x512.Idx → EReal) (V c main_v19 : S160000x512.Idx → EReal)
        (V c main_v26 : S160000x512.Idx → EReal) (V c main_v1 : S512x512.Idx → EReal) (V c main_v7 : S512x512.Idx → EReal)
        (V c main_v8 : S1x512.Idx → EReal) (V c main_v9 : S1x512.Idx → EReal) (V c main_v10 : S1x512.Idx → EReal)
        (V c main_v11 : S1x512.Idx → EReal)) := by
  show (cfg1.win 9).cut (grid1.coords t) ((dat1 V c).after 9 t) = _
  rw [after1_9]
  unfold out1_9
  rw [View.canon_unit_zero hz]
  simp only [View.ld_unit_zero (S := S1000x512) hz, View.ld_unit_zero (S := S512x512) hz, View.ld_unit_zero (S := S1x512) hz]
  obtain ⟨-, -, -, -, -, -, -, -, -, ⟨e0, e1⟩⟩ := idx_facts t
  have hN : cfg1.N = 160 := N_1
  have ht : t.val < 160 := hN ▸ t.isLt
  funext y
  obtain ⟨p, q, rfl⟩ : ∃ (p : Fin 1000) (q : Fin 512), y = ix2 p q := ⟨y 0, y 1, eq_ix2 y⟩
  refine (hbody _ _ _ _ _ _ _ _ _ p q).trans ?_
  rw [View.read_apply]
  have hp : p.val < 1000 := p.isLt
  refine Eq.trans ?_ (edgeOut_at _ _ _ _ _ _ _ _ _ _ ⟨t.val * 1000 + p.val, by omega⟩ q
    (show win1_9.index t (0 : Fin 2) * 1000 + 1 * p.val = t.val * 1000 + p.val by rw [e0]; omega)
    (show win1_9.index t (1 : Fin 2) * 512 + 1 * q.val = q.val by rw [e1]; omega)).symm
  have h0 : (fun k => iblk1 V c 0 t (ix2 p k)) = fun k => (V c main_arg0 : S160000x512.Idx → EReal) (ix2 (⟨t.val * 1000 + p.val, by omega⟩ : Fin 160000) k) :=
    funext fun k => rows0 V c t p k _ rfl
  have h1 : (fun k => iblk1 V c 1 t (ix2 p k)) = fun k => (V c main_v19 : S160000x512.Idx → EReal) (ix2 (⟨t.val * 1000 + p.val, by omega⟩ : Fin 160000) k) :=
    funext fun k => rows1 V c t p k _ rfl
  have h2 : (fun k => iblk1 V c 2 t (ix2 p k)) = fun k => (V c main_v26 : S160000x512.Idx → EReal) (ix2 (⟨t.val * 1000 + p.val, by omega⟩ : Fin 160000) k) :=
    funext fun k => rows2 V c t p k _ rfl
  rw [h0, h1, h2, whole3 V c t, whole4 V c t, whole5 V c t, whole6 V c t, whole7 V c t, whole8 V c t]

/-- An index of the result is in point `t`'s block iff each coordinate is in the block's range. -/
theorem mem_blk9 (t : Fin cfg1.N) (i : S160000x512.Idx) :
    i ∈ ((cfg1.win 9).blk t).view.set ↔ ∀ a : Fin 2, win1_9.index t a * S1000x512.size a ≤ (i a).val ∧ (i a).val < win1_9.index t a * S1000x512.size a + S1000x512.size a := by
  show i ∈ ((View.whole main_v27).slice (win1_9.rect t)).set ↔ _
  rw [View.set_slice_whole, Rect.mem_set_unit]
  exact Iff.rfl

/-- Row `e` lies in block `e / 1000`. -/
theorem cover9 (i : S160000x512.Idx) : ∃ t : Fin cfg1.N, (cfg1.win 9).flush t = true ∧ i ∈ ((cfg1.win 9).blk t).view.set := by
  have hi0 : (i 0).val < 160000 := (i 0).isLt
  have hi1 : (i 1).val < 512 := (i 1).isLt
  have hN : cfg1.N = 160 := N_1
  refine ⟨⟨(i 0).val / 1000, by rw [hN]; omega⟩, flush1_9 _, ?_⟩
  rw [mem_blk9]
  obtain ⟨-, -, -, -, -, -, -, -, -, ⟨e0, e1⟩⟩ := idx_facts ⟨(i 0).val / 1000, by rw [hN]; omega⟩
  intro a
  match a with
  | ⟨0, _⟩ => show win1_9.index _ (0 : Fin 2) * 1000 ≤ (i 0).val ∧ (i 0).val < win1_9.index _ (0 : Fin 2) * 1000 + 1000; rw [e0]; show (i 0).val / 1000 * 1000 ≤ (i 0).val ∧ (i 0).val < (i 0).val / 1000 * 1000 + 1000; omega
  | ⟨1, _⟩ => show win1_9.index _ (1 : Fin 2) * 512 ≤ (i 1).val ∧ (i 1).val < win1_9.index _ (1 : Fin 2) * 512 + 512; rw [e1]; omega

/-- After the region the result array is the updated rows. -/
theorem final9 (hbody : StoresRowUpdate) (c : Dev nD) : (dat1 V c).arrAt 9 cfg1.N
    = edgeOut (V c main_arg0 : S160000x512.Idx → EReal) (V c main_v19 : S160000x512.Idx → EReal)
        (V c main_v26 : S160000x512.Idx → EReal) (V c main_v1 : S512x512.Idx → EReal) (V c main_v7 : S512x512.Idx → EReal)
        (V c main_v8 : S1x512.Idx → EReal) (V c main_v9 : S1x512.Idx → EReal) (V c main_v10 : S1x512.Idx → EReal)
        (V c main_v11 : S1x512.Idx → EReal) :=
  (dat1 V c).arrAt_eq_of_cover 9 _ (fun t _ => flushed9_eq V hbody c t) cover9

end Cert.KernelIdeal.EdgeArray

end
-- ==== Proof.Boundaries.lean ====
/-
  The buffer contents at the idealized kernel program's segment boundaries, read as functions of the arguments.

  Before the node-projection region the host transposes each weight and changes its float format (the identity on
  the extended reals), and recasts each `[512]` row as `[1, 512]`. The region leaves in its two result arrays the
  products of the node features with the two transposed node weights. The host then computes, for each end-point
  index array, the start indices of a row gather (a negative index is shifted by the number of nodes) and gathers
  one row of the matching product per edge. The edge region finally leaves in the result array the update of every
  edge row. Put together, the result buffer at the last boundary is one explicit function of the twelve arguments.
-/
import proofs.«123910_j14027363189335_2_alg».proof.Proof.Gen.KernelIdeal.Frame
import proofs.«123910_j14027363189335_2_alg».proof.Proof.NodeProjArray
import proofs.«123910_j14027363189335_2_alg».proof.Proof.EdgeArray
import Idealize.ShloMosaic.Lib.StableHlo.Run

set_option maxRecDepth 16384

noncomputable section

namespace Cert.KernelIdeal.Boundaries

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg)

/-- A weight as a region consumes it: transposed, then its float format changed. -/
def weightIn (W : S512x512.Idx → EReal) : S512x512.Idx → EReal :=
  truncf (F := Ideal) .bf16 (transpose S512x512 [1, 0] (W : FVec Ideal S512x512 .f32) Facts₀.transposes_S512x512_S512x512_1_0) Facts₀.bitsLt_bf16_f32

/-- A `[512]` row as a region consumes it: recast as `[1, 512]`. -/
def rowIn (v : S512.Idx → EReal) : S1x512.Idx → EReal := shapeCast S1x512 v Facts₀.shapeCasts_S512_S1x512

/-- The start indices of the row gather, from an end-point index array: a negative index is shifted by 10000. -/
def startIdx (s : S160000.Idx → BitVec 32) : S160000x1.Idx → BitVec 32 :=
  broadcastInDim S160000x1 ![0] Facts₀.bcast_S160000_S160000x1_0
    (select (cmpi .slt s (broadcastInDim S160000 ![] Facts₀.bcast_S_S160000 (constantI S_ 32 0#32)))
      (addi s (broadcastInDim S160000 ![] Facts₀.bcast_S_S160000 (constantI S_ 32 10000#32))) s)

/-! ## The entry of the node-projection region -/

theorem W1_arg1 (c : Dev nD) : W1 m ρ c (Proc.devRef .tc main_arg1) = m ((c : Thread nD τ).loc main_arg1) := by
  show StableHlo.after hostOps0 (W0 m ρ c) (Proc.devRef .tc main_arg1) = _
  after_results

theorem W1_v3 (c : Dev nD) : (W1 m ρ c (Proc.devRef .tc main_v3) : S512x512.Idx → EReal)
    = weightIn (m ((c : Thread nD τ).loc main_arg5)) := by
  show StableHlo.after hostOps0 (W0 m ρ c) (Proc.devRef .tc main_v3) = _
  after_results; rfl

theorem W1_v5 (c : Dev nD) : (W1 m ρ c (Proc.devRef .tc main_v5) : S512x512.Idx → EReal)
    = weightIn (m ((c : Thread nD τ).loc main_arg6)) := by
  show StableHlo.after hostOps0 (W0 m ρ c) (Proc.devRef .tc main_v5) = _
  after_results; rfl

theorem W1_v1 (c : Dev nD) : (W1 m ρ c (Proc.devRef .tc main_v1) : S512x512.Idx → EReal)
    = weightIn (m ((c : Thread nD τ).loc main_arg4)) := by
  show StableHlo.after hostOps0 (W0 m ρ c) (Proc.devRef .tc main_v1) = _
  after_results; rfl

theorem W1_v7 (c : Dev nD) : (W1 m ρ c (Proc.devRef .tc main_v7) : S512x512.Idx → EReal)
    = weightIn (m ((c : Thread nD τ).loc main_arg8)) := by
  show StableHlo.after hostOps0 (W0 m ρ c) (Proc.devRef .tc main_v7) = _
  after_results; rfl

theorem W1_v8 (c : Dev nD) : (W1 m ρ c (Proc.devRef .tc main_v8) : S1x512.Idx → EReal)
    = rowIn (m ((c : Thread nD τ).loc main_arg7)) := by
  show StableHlo.after hostOps0 (W0 m ρ c) (Proc.devRef .tc main_v8) = _
  after_results; rfl

theorem W1_v9 (c : Dev nD) : (W1 m ρ c (Proc.devRef .tc main_v9) : S1x512.Idx → EReal)
    = rowIn (m ((c : Thread nD τ).loc main_arg9)) := by
  show StableHlo.after hostOps0 (W0 m ρ c) (Proc.devRef .tc main_v9) = _
  after_results; rfl

theorem W1_v10 (c : Dev nD) : (W1 m ρ c (Proc.devRef .tc main_v10) : S1x512.Idx → EReal)
    = rowIn (m ((c : Thread nD τ).loc main_arg10)) := by
  show StableHlo.after hostOps0 (W0 m ρ c) (Proc.devRef .tc main_v10) = _
  after_results; rfl

theorem W1_v11 (c : Dev nD) : (W1 m ρ c (Proc.devRef .tc main_v11) : S1x512.Idx → EReal)
    = rowIn (m ((c : Thread nD τ).loc main_arg11)) := by
  show StableHlo.after hostOps0 (W0 m ρ c) (Proc.devRef .tc main_v11) = _
  after_results; rfl

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg2 (c : Dev nD) : W1 m ρ c (Proc.devRef .tc main_arg2) = m ((c : Thread nD τ).loc main_arg2) := by
  show StableHlo.after hostOps0 (W0 m ρ c) (Proc.devRef .tc main_arg2) = _
  after_results

theorem W1_arg3 (c : Dev nD) : W1 m ρ c (Proc.devRef .tc main_arg3) = m ((c : Thread nD τ).loc main_arg3) := by
  show StableHlo.after hostOps0 (W0 m ρ c) (Proc.devRef .tc main_arg3) = _
  after_results

/-! ## The exit of the node-projection region -/

/-- The first product array. -/
theorem W2_src (hsrc : NodeProj.StoresProduct (k0_pay2 (F := Ideal))) (c : Dev nD) : (W2 m ρ c (Proc.devRef .tc main_v12_0) : S10000x512.Idx → EReal)
    = NodeProj.prod (m ((c : Thread nD τ).loc main_arg1)) (weightIn (m ((c : Thread nD τ).loc main_arg5))) := by
  refine (W2_arr m ρ c 3).trans ?_
  rw [NodeProj.final3 (V1 m ρ) hsrc c]
  show NodeProj.prod (W1 m ρ c (Proc.devRef .tc main_arg1)) (W1 m ρ c (Proc.devRef .tc main_v3)) = _
  rw [W1_arg1, W1_v3]

/-- The second product array. -/
theorem W2_dst (hdst : NodeProj.StoresProduct (k0_pay3 (F := Ideal))) (c : Dev nD) : (W2 m ρ c (Proc.devRef .tc main_v12_1) : S10000x512.Idx → EReal)
    = NodeProj.prod (m ((c : Thread nD τ).loc main_arg1)) (weightIn (m ((c : Thread nD τ).loc main_arg6))) := by
  refine (W2_arr m ρ c 4).trans ?_
  rw [NodeProj.final4 (V1 m ρ) hdst c]
  show NodeProj.prod (W1 m ρ c (Proc.devRef .tc main_arg1)) (W1 m ρ c (Proc.devRef .tc main_v5)) = _
  rw [W1_arg1, W1_v5]

/-- A buffer that is no array of the node-projection region leaves it as it entered. -/
theorem W2_keep (c : Dev nD) (b : Ref sig .tc) (hb : ∀ w, Pipeline.arrRef spec0 w ≠ b) :
    W2 m ρ c (Proc.devRef .tc b) = W1 m ρ c (Proc.devRef .tc b) := W2_of_ne m ρ c b hb

/-! ## The entry of the edge region -/

/-- The first gathered array: one row of the first product per edge. -/
theorem W3_v19 (c : Dev nD) : (W3 m ρ c (Proc.devRef .tc main_v19) : S160000x512.Idx → EReal)
    = Host.gather gather_S10000x512_S160000x1_S160000x512_1_0_n_n_0_1_1512
        (W2 m ρ c (Proc.devRef .tc main_v12_0) : S10000x512.Idx → EReal) (startIdx (W2 m ρ c (Proc.devRef .tc main_arg2))) := by
  show StableHlo.after hostOps1 (W2 m ρ c) (Proc.devRef .tc main_v19) = _
  after_results; rfl

/-- The second gathered array: one row of the second product per edge. -/
theorem W3_v26 (c : Dev nD) : (W3 m ρ c (Proc.devRef .tc main_v26) : S160000x512.Idx → EReal)
    = Host.gather gather_S10000x512_S160000x1_S160000x512_1_0_n_n_0_1_1512
        (W2 m ρ c (Proc.devRef .tc main_v12_1) : S10000x512.Idx → EReal) (startIdx (W2 m ρ c (Proc.devRef .tc main_arg3))) := by
  show StableHlo.after hostOps1 (W2 m ρ c) (Proc.devRef .tc main_v26) = _
  after_results; rfl

/-- The gathers' host operations write none of the other buffers the edge region reads. -/
theorem W3_keep (c : Dev nD) (b : Ref sig .tc)
    (hb : b ∉ [main_c, main_v13, main_v14, main_c_0, main_v15, main_v16, main_v17, main_v18, main_v19,
      main_c_1, main_v20, main_v21, main_c_2, main_v22, main_v23, main_v24, main_v25, main_v26]) :
    W3 m ρ c (Proc.devRef .tc b) = W2 m ρ c (Proc.devRef .tc b) :=
  StableHlo.after_of_writes_sub hostOps1 (W2 m ρ c)
    (by simp only [hostOps1, List.Forall, StableHlo.nullary_writes, StableHlo.unary_writes, StableHlo.binary_writes,
          StableHlo.ternary_writes, List.map, List.toFinset_cons, List.toFinset_nil]
        repeat' apply And.intro
        all_goals (intro x hx; rw [Finset.mem_singleton] at hx; subst hx; simp only [Finset.mem_insert, Finset.mem_singleton, true_or, or_true]))
    hb

end Cert.KernelIdeal.Boundaries

end
-- ==== Proof.KernelRun.lean ====
/-
  The idealized kernel program's run with its result array named.

  The program is four segments: host operations, the node-projection region, host operations (the two row
  gathers), the edge region. Every weakly fair execution terminates without a fault, and in the final state every
  unscoped buffer of a core holds the contents the segment boundaries' fold assigns it at the last boundary; in
  particular the result buffer holds the last boundary's contents there, and the twelve argument buffers hold
  what they held at launch.
-/
import proofs.«123910_j14027363189335_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments as launched. -/
theorem run_result : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunValue

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.NodeProjBody.lean ====
/-
  The node-projection kernel's two stored values, read entry by entry on the extended reals.

  Each is the vector unit's product of the node-feature block (cast to the narrower format, which is the identity
  on the extended reals) with one weight, accumulated into the zero splat: entry `(p, q)` is
  `Σ_k x (p, k) · W (k, q)`.
-/
import proofs.«123910_j14027363189335_2_alg».proof.Proof.Gen.KernelIdeal.Skeleton
import proofs.«123910_j14027363189335_2_alg».proof.Proof.EdgeSpec
import proofs.«123910_j14027363189335_2_alg».proof.Proof.LibRowMax

noncomputable section

namespace Cert.KernelIdeal.Body

open Idealize.ShloMosaic Idealize.ShloMosaic.ValueIdx Cert.KernelIdeal Cert.KernelIdeal.Gen Cert.EdgeMlp

/-- The printed dimension numbers are those of a plain product `[1000, 512] × [512, 512] → [1000, 512]`. -/
theorem dot_eq_plain :
    dot_S1000x512_S512x512_S1000x512_1_0_0_1_n_n
      = Cert.LibRowMax.plainDims 1000 512 512 Facts₀.dot_S1000x512_S512x512_S1000x512_1_0_0_1_n_n_wf := rfl

/-- The vector unit's product at the printed dimension numbers into the zero splat, at `(p, q)`: the sum over the
    contracted coordinate. -/
theorem matmul_zero_apply {φ₁ φ₂ : FTy} (lhs : FVec Ideal S1000x512 φ₁) (rhs : FVec Ideal S512x512 φ₂)
    (p : Fin 1000) (q : Fin 512) :
    matmul dot_S1000x512_S512x512_S1000x512_1_0_0_1_n_n none lhs rhs
        (constant (F := Ideal) S1000x512 .f32 0x00000000#32) (ix2 p q)
      = ∑ k : Fin 512, lhs (ix2 p k) * rhs (ix2 k q) := by
  rw [dot_eq_plain]
  exact Cert.LibRowMax.matmul_plain_apply _ none lhs rhs p q

/-- The first stored projection at `(p, q)`. -/
theorem srcProj_apply (x0 : Vec Ideal S1000x512 .f32) (x1 : Vec Ideal S512x512 .bf16) (p : Fin 1000) (q : Fin 512) :
    k0_pay2 (F := Ideal) x0 x1 (ix2 p q) = ∑ k : Fin 512, x0 (ix2 p k) * x1 (ix2 k q) := by
  unfold k0_pay2 k0_pay1
  refine (matmul_zero_apply _ _ p q).trans ?_
  rw [shapeCast_self]
  rfl

/-- The second stored projection at `(p, q)`. -/
theorem dstProj_apply (x0 : Vec Ideal S1000x512 .f32) (x1 : Vec Ideal S512x512 .bf16) (p : Fin 1000) (q : Fin 512) :
    k0_pay3 (F := Ideal) x0 x1 (ix2 p q) = ∑ k : Fin 512, x0 (ix2 p k) * x1 (ix2 k q) := by
  unfold k0_pay3 k0_pay1
  refine (matmul_zero_apply _ _ p q).trans ?_
  rw [shapeCast_self]
  rfl

end Cert.KernelIdeal.Body

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibSilu.lean ====
/-
  `silu z = z · 1 / (1 + e^{-z})` on the extended reals, in the two spellings programs use.

  * A kernel's vector unit multiplies a vector by its logistic, entry by entry: entry `i` of `x · logistic x` is
    `x i · logistic (x i)` (`vector_form`).
  * The host expands the logistic into negate, exponential, add and divide, and writes the number one as the
    f32 literal `0x3F800000`: `z · (one / (one + exp (−z)))` is `z · logistic z` (`host_spelling`), since that
    literal is the number one and the host's negation, exponential, sum and quotient are the extended reals'.
  Both hold at every extended real, the infinities included.
-/
import Idealize.ShloMosaic.PureOps.Ideal
import Idealize.ShloMosaic.Lib.IdealHost

noncomputable section

namespace Cert.LibSilu

open Idealize.ShloMosaic

/-- The vector unit's `x · logistic x` at entry `i`. -/
theorem vector_form {s : Shape} (x : FVec Ideal s .f32) (i : s.Idx) :
    mulf x (logistic x) i = x i * Ideal.logistic (x i) := rfl

/-- The host's `z · (one / (one + exp (−z)))`, with both ones the f32 literal for one. -/
theorem host_spelling (z : Ideal .f32) :
    FloatOps.mulf z (FloatOps.hostDivf (FloatOps.ofBits .f32 0x3F800000#32)
      (FloatOps.addf (FloatOps.ofBits .f32 0x3F800000#32) (FloatOps.hostUnary .exp (FloatOps.hostNegf z))))
      = z * Ideal.logistic z := by
  show z * Ideal.div (Ideal.ofBits .f32 0x3F800000#32) (Ideal.ofBits .f32 0x3F800000#32 + Ideal.exp (-z))
    = z * Ideal.div 1 (1 + Ideal.exp (-z))
  rw [Ideal.ofBits_one_f32]

end Cert.LibSilu

end
-- ==== Proof.EdgeBody.lean ====
/-
  The edge kernel's stored value, read entry by entry on the extended reals.

  For the edge in row `p` write `Y p` for the second layer's row `silu (x · We + ps + pd + b1) · W2 + b2`. The kernel
  forms the whole block of these rows, subtracts each row's mean (its lane sum over the literal 512) to get the
  centred block, takes the mean of the centred block's squares shifted by the literal 1e-5 as a column, and stores
  `centred · rsqrt (column) · g + b + x`. Every step is an entry-wise operation, a lane sum, a plain product into
  the zero splat, or a row or column broadcast, so each is read at `(p, q)` by the corresponding entry lemma, in
  the specification's own order of operations.
-/
import proofs.«123910_j14027363189335_2_alg».proof.Proof.NodeProjBody
import proofs.«123910_j14027363189335_2_alg».proof.Proof.LibColumn
import proofs.«123910_j14027363189335_2_alg».proof.Proof.LibSilu

noncomputable section

namespace Cert.KernelIdeal.Body

open Idealize.ShloMosaic Idealize.ShloMosaic.ValueIdx Cert.KernelIdeal Cert.KernelIdeal.Gen Cert.EdgeMlp

/-- Row `p` of a `[1000, 512]` block. -/
abbrev rowAt (x : Vec Ideal S1000x512 .f32) (p : Fin 1000) : Row := fun k => x (ix2 p k)
/-- The one row of a `[1, 512]` block. -/
abbrev theRow (x : Vec Ideal S1x512 .f32) : Row := fun k => x (ix2 (0 : Fin 1) k)

/-! ## The two layers -/

/-- The first layer before its activation, as a block: the product with the first weight, plus the two gathered
    projections, plus the first bias row broadcast down the rows. -/
def hiddenBlock (x0 : Vec Ideal S1000x512 .f32) (x3 : Vec Ideal S512x512 .bf16) (x1 x2 : Vec Ideal S1000x512 .f32)
    (x5 : Vec Ideal S1x512 .f32) : FVec Ideal S1000x512 .f32 :=
  addf
    (addf
      (addf
        (matmul dot_S1000x512_S512x512_S1000x512_1_0_0_1_n_n none (truncf .bf16 x0 bitsLt_bf16_f32)
          (shapeCast S512x512 x3 shapeCasts_S512x512_S512x512 : FVec Ideal S512x512 .bf16)
          (constant S1000x512 .f32 0x00000000#32))
        (shapeCast S1000x512 x1 shapeCasts_S1000x512_S1000x512 : FVec Ideal S1000x512 .f32))
      (shapeCast S1000x512 x2 shapeCasts_S1000x512_S1000x512 : FVec Ideal S1000x512 .f32))
    (broadcastTo S1000x512 (shapeCast S1x512 x5 shapeCasts_S1x512_S1x512 : FVec Ideal S1x512 .f32)
      broadcasts_S1x512_S1000x512)

/-- The first layer's block at `(p, q)` is the specification's `hidden` of row `p`. -/
theorem hiddenBlock_apply (x0 : Vec Ideal S1000x512 .f32) (x3 : Vec Ideal S512x512 .bf16)
    (x1 x2 : Vec Ideal S1000x512 .f32) (x5 : Vec Ideal S1x512 .f32) (p : Fin 1000) (q : Fin 512) :
    hiddenBlock x0 x3 x1 x2 x5 (ix2 p q) = hidden (rowAt x0 p) (rowAt x1 p) (rowAt x2 p) x3 (theRow x5) q := by
  unfold hiddenBlock
  refine (addf_apply _ _ _).trans ?_
  refine congrArg₂ (· + ·) ?_ ?_
  · refine (addf_apply _ _ _).trans ?_
    refine congrArg₂ (· + ·) ?_ ?_
    · refine (addf_apply _ _ _).trans ?_
      refine congrArg₂ (· + ·) ?_ ?_
      · refine (matmul_zero_apply _ _ p q).trans ?_
        rw [shapeCast_self]
        rfl
      · rw [shapeCast_self]
    · rw [shapeCast_self]
  · refine (broadcastTo_1b_ab_apply _ _ p q).trans ?_
    rw [shapeCast_self]

/-- The second layer as a block: the activated first layer (cast to the narrower format) times the second weight,
    plus the second bias row broadcast down the rows. -/
def affineBlock (x0 : Vec Ideal S1000x512 .f32) (x3 : Vec Ideal S512x512 .bf16) (x1 x2 : Vec Ideal S1000x512 .f32)
    (x5 : Vec Ideal S1x512 .f32) (x4 : Vec Ideal S512x512 .bf16) (x6 : Vec Ideal S1x512 .f32) :
    FVec Ideal S1000x512 .f32 :=
  addf
    (matmul dot_S1000x512_S512x512_S1000x512_1_0_0_1_n_n none
      (truncf .bf16 (mulf (hiddenBlock x0 x3 x1 x2 x5) (logistic (hiddenBlock x0 x3 x1 x2 x5))) bitsLt_bf16_f32)
      (shapeCast S512x512 x4 shapeCasts_S512x512_S512x512 : FVec Ideal S512x512 .bf16)
      (constant S1000x512 .f32 0x00000000#32))
    (broadcastTo S1000x512 (shapeCast S1x512 x6 shapeCasts_S1x512_S1x512 : FVec Ideal S1x512 .f32)
      broadcasts_S1x512_S1000x512)

/-- Row `p` of the second layer, in the specification's words. -/
abbrev layerRow (x0 : Vec Ideal S1000x512 .f32) (x3 : Vec Ideal S512x512 .bf16) (x1 x2 : Vec Ideal S1000x512 .f32)
    (x5 : Vec Ideal S1x512 .f32) (x4 : Vec Ideal S512x512 .bf16) (x6 : Vec Ideal S1x512 .f32) (p : Fin 1000) : Row :=
  affine (act (hidden (rowAt x0 p) (rowAt x1 p) (rowAt x2 p) x3 (theRow x5))) x4 (theRow x6)

/-- The second layer's block at `(p, q)` is the specification's `affine (act (hidden …))` of row `p`. -/
theorem affineBlock_apply (x0 : Vec Ideal S1000x512 .f32) (x3 : Vec Ideal S512x512 .bf16)
    (x1 x2 : Vec Ideal S1000x512 .f32) (x5 : Vec Ideal S1x512 .f32) (x4 : Vec Ideal S512x512 .bf16)
    (x6 : Vec Ideal S1x512 .f32) (p : Fin 1000) (q : Fin 512) :
    affineBlock x0 x3 x1 x2 x5 x4 x6 (ix2 p q) = layerRow x0 x3 x1 x2 x5 x4 x6 p q := by
  unfold affineBlock
  refine (addf_apply _ _ _).trans ?_
  refine congrArg₂ (· + ·) ?_ ?_
  · refine (matmul_zero_apply _ _ p q).trans ?_
    rw [shapeCast_self]
    refine Finset.sum_congr rfl fun k _ => congrArg (· * x4 (ix2 k q)) ?_
    refine (truncf_apply (ψ := .bf16) _ bitsLt_bf16_f32 (ix2 p k)).trans ?_
    refine (Cert.LibSilu.vector_form (hiddenBlock x0 x3 x1 x2 x5) (ix2 p k)).trans ?_
    rw [hiddenBlock_apply]
    rfl
  · refine (broadcastTo_1b_ab_apply _ _ p q).trans ?_
    rw [shapeCast_self]

/-! ## Row means kept as a column -/

/-- The lane sums of a block, kept as a column and divided by the literal 512: at `(p, 0)` the row's sum over 512. -/
theorem rowMean_apply (y : FVec Ideal S1000x512 .f32) (p : Fin 1000) :
    divf
        (shapeCast S1000x1
          (multiReduction (F := Ideal) .add [1] S1000 y 0x00000000#32 reduces_S1000x512_S1000 (.inl rfl) rfl)
          shapeCasts_S1000_S1000x1)
        (broadcast S1000x1 (Scalar.ofBits (F := Ideal) .f32 0x44000000#32)) (ix2 p (0 : Fin 1))
      = Ideal.div (∑ d : Fin 512, y (ix2 p d)) c512 := by
  refine (divf_apply _ _ _).trans ?_
  refine congrArg₂ Ideal.div ?_ rfl
  refine (Cert.LibColumn.shapeCast_a_a1_apply _ _ p (0 : Fin 1)).trans ?_
  exact Cert.LibColumn.sum_last_apply y _ _ _ p

/-! ## The centred block and the shifted variance column -/

/-- The first carried value is the second layer's block minus its row means broadcast across the lanes. -/
theorem pay2_eq (x0 : Vec Ideal S1000x512 .f32) (x3 : Vec Ideal S512x512 .bf16) (x1 x2 : Vec Ideal S1000x512 .f32)
    (x5 : Vec Ideal S1x512 .f32) (x4 : Vec Ideal S512x512 .bf16) (x6 : Vec Ideal S1x512 .f32) :
    k1_pay2 (F := Ideal) x0 x3 x1 x2 x5 x4 x6
      = subf (affineBlock x0 x3 x1 x2 x5 x4 x6)
          (broadcastTo S1000x512
            (divf
              (shapeCast S1000x1
                (multiReduction (F := Ideal) .add [1] S1000 (affineBlock x0 x3 x1 x2 x5 x4 x6) 0x00000000#32
                  reduces_S1000x512_S1000 (.inl rfl) rfl)
                shapeCasts_S1000_S1000x1)
              (broadcast S1000x1 (Scalar.ofBits (F := Ideal) .f32 0x44000000#32)))
            broadcasts_S1000x1_S1000x512) := rfl

/-- The first carried value at `(p, q)`: the centred second-layer row. -/
theorem centred_apply (x0 : Vec Ideal S1000x512 .f32) (x3 : Vec Ideal S512x512 .bf16)
    (x1 x2 : Vec Ideal S1000x512 .f32) (x5 : Vec Ideal S1x512 .f32) (x4 : Vec Ideal S512x512 .bf16)
    (x6 : Vec Ideal S1x512 .f32) (p : Fin 1000) (q : Fin 512) :
    k1_pay2 (F := Ideal) x0 x3 x1 x2 x5 x4 x6 (ix2 p q) = centred (layerRow x0 x3 x1 x2 x5 x4 x6 p) q := by
  rw [pay2_eq]
  refine (subf_apply _ _ _).trans ?_
  refine congrArg₂ (· - ·) (affineBlock_apply x0 x3 x1 x2 x5 x4 x6 p q) ?_
  refine (Cert.LibColumn.broadcastTo_a1_ab_apply _ _ p q).trans ?_
  refine (rowMean_apply _ p).trans ?_
  exact congrArg (Ideal.div · c512) (Finset.sum_congr rfl fun d _ => affineBlock_apply x0 x3 x1 x2 x5 x4 x6 p d)

/-- The second carried value at `(p, 0)`: the row's variance plus the literal 1e-5. -/
theorem varEps_apply (x0 : Vec Ideal S1000x512 .f32) (x3 : Vec Ideal S512x512 .bf16)
    (x1 x2 : Vec Ideal S1000x512 .f32) (x5 : Vec Ideal S1x512 .f32) (x4 : Vec Ideal S512x512 .bf16)
    (x6 : Vec Ideal S1x512 .f32) (p : Fin 1000) :
    k1_pay3 (F := Ideal) x0 x3 x1 x2 x5 x4 x6 (ix2 p (0 : Fin 1))
      = variance (layerRow x0 x3 x1 x2 x5 x4 x6 p) + cEps := by
  unfold k1_pay3
  refine (addf_apply _ _ _).trans ?_
  refine congrArg₂ (· + ·) ?_ rfl
  refine (rowMean_apply _ p).trans ?_
  refine congrArg (Ideal.div · c512) (Finset.sum_congr rfl fun d _ => ?_)
  refine (mulf_apply _ _ _).trans ?_
  rw [centred_apply]

/-! ## The stored value -/

/-- The stored value from any centred block `c` and any column `v`: `c · rsqrt v · g + b + x`. -/
theorem finish_apply (x0 : Vec Ideal S1000x512 .f32) (c : FVec Ideal S1000x512 .f32) (v : FVec Ideal S1000x1 .f32)
    (x7 x8 : Vec Ideal S1x512 .f32) (p : Fin 1000) (q : Fin 512) :
    k1_pay1 (F := Ideal) x0 c v x7 x8 (ix2 p q)
      = c (ix2 p q) * Ideal.rsqrt (v (ix2 p (0 : Fin 1))) * theRow x7 q + theRow x8 q + x0 (ix2 p q) := by
  unfold k1_pay1
  refine (addf_apply _ _ _).trans ?_
  refine congrArg₂ (· + ·) ?_ rfl
  refine (addf_apply _ _ _).trans ?_
  refine congrArg₂ (· + ·) ?_ ?_
  · refine (mulf_apply _ _ _).trans ?_
    refine congrArg₂ (· * ·) ?_ ?_
    · refine (mulf_apply _ _ _).trans ?_
      refine congrArg₂ (· * ·) rfl ?_
      exact Cert.LibColumn.broadcastTo_a1_ab_apply _ _ p q
    · refine (broadcastTo_1b_ab_apply _ _ p q).trans ?_
      rw [shapeCast_self]
  · refine (broadcastTo_1b_ab_apply _ _ p q).trans ?_
    rw [shapeCast_self]

/-- The edge kernel's stored value at `(p, q)` is the specification's new feature row of edge `p` at `q`. -/
theorem edge_apply (x0 x1 x2 : Vec Ideal S1000x512 .f32) (x3 x4 : Vec Ideal S512x512 .bf16)
    (x5 x6 x7 x8 : Vec Ideal S1x512 .f32) (p : Fin 1000) (q : Fin 512) :
    k1_pay1 (F := Ideal) x0 (k1_pay2 x0 x3 x1 x2 x5 x4 x6) (k1_pay3 x0 x3 x1 x2 x5 x4 x6) x7 x8 (ix2 p q)
      = rowOut (fun k => x0 (ix2 p k)) (fun k => x1 (ix2 p k)) (fun k => x2 (ix2 p k)) x3 x4
          (fun k => x5 (ix2 (0 : Fin 1) k)) (fun k => x6 (ix2 (0 : Fin 1) k)) (fun k => x7 (ix2 (0 : Fin 1) k))
          (fun k => x8 (ix2 (0 : Fin 1) k)) q := by
  refine (finish_apply x0 _ _ x7 x8 p q).trans ?_
  rw [centred_apply, varEps_apply]
  rfl

end Cert.KernelIdeal.Body

end
-- ==== Proof.KernelValue.lean ====
/-
  The idealized kernel program's result as one function of its arguments, and its run.

  Walking the segment boundaries back from the last one: the result array is the update of every edge row, computed
  from the edge features, the two gathered arrays, the two weights and the four rows as the edge region finds them;
  the gathered arrays are row gathers of the node-projection region's two products at start indices computed from
  the two index arguments; everything else is an argument passed through the host's transposes and recasts.
-/
import proofs.«123910_j14027363189335_2_alg».proof.Proof.Boundaries
import proofs.«123910_j14027363189335_2_alg».proof.Proof.KernelRun
import proofs.«123910_j14027363189335_2_alg».proof.Proof.NodeProjBody
import proofs.«123910_j14027363189335_2_alg».proof.Proof.EdgeBody

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.Boundaries

variable (m : (ℓ : Loc nD τ sig) → Buf (Elt Ideal) ℓ) (ρ : Dev nD → PrngReg)

/-- The result as a function of the twelve argument arrays. -/
def result (a0 : S160000x512.Idx → EReal) (a1 : S10000x512.Idx → EReal) (a2 a3 : S160000.Idx → BitVec 32)
    (a4 a5 a6 : S512x512.Idx → EReal) (a7 : S512.Idx → EReal) (a8 : S512x512.Idx → EReal) (a9 a10 a11 : S512.Idx → EReal) :
    S160000x512.Idx → EReal :=
  EdgeArray.edgeOut a0
    (Host.gather gather_S10000x512_S160000x1_S160000x512_1_0_n_n_0_1_1512 (NodeProj.prod a1 (weightIn a5)) (startIdx a2))
    (Host.gather gather_S10000x512_S160000x1_S160000x512_1_0_n_n_0_1_1512 (NodeProj.prod a1 (weightIn a6)) (startIdx a3))
    (weightIn a4) (weightIn a8) (rowIn a7) (rowIn a9) (rowIn a10) (rowIn a11)

/-- The result buffer at the last boundary is `result` of the launch contents of the arguments. -/
theorem last_boundary (c : Dev nD) : (W4 m ρ c (Proc.devRef .tc main_v27) : S160000x512.Idx → EReal)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (W4_arr m ρ c 9).trans ?_
  rw [EdgeArray.final9 (V3 m ρ) Cert.KernelIdeal.Body.edge_apply c]
  show EdgeArray.edgeOut (W3 m ρ c (Proc.devRef .tc main_arg0)) (W3 m ρ c (Proc.devRef .tc main_v19))
    (W3 m ρ c (Proc.devRef .tc main_v26)) (W3 m ρ c (Proc.devRef .tc main_v1)) (W3 m ρ c (Proc.devRef .tc main_v7))
    (W3 m ρ c (Proc.devRef .tc main_v8)) (W3 m ρ c (Proc.devRef .tc main_v9)) (W3 m ρ c (Proc.devRef .tc main_v10))
    (W3 m ρ c (Proc.devRef .tc main_v11)) = _
  rw [W3_v19, W3_v26, W2_src m ρ Cert.KernelIdeal.Body.srcProj_apply, W2_dst m ρ Cert.KernelIdeal.Body.dstProj_apply,
    W3_keep m ρ c main_arg0 (by decide), W3_keep m ρ c main_v1 (by decide), W3_keep m ρ c main_v7 (by decide),
    W3_keep m ρ c main_v8 (by decide), W3_keep m ρ c main_v9 (by decide), W3_keep m ρ c main_v10 (by decide),
    W3_keep m ρ c main_v11 (by decide),
    W2_keep m ρ c main_arg0 (by decide), W2_keep m ρ c main_arg2 (by decide), W2_keep m ρ c main_arg3 (by decide),
    W2_keep m ρ c main_v1 (by decide), W2_keep m ρ c main_v7 (by decide), W2_keep m ρ c main_v8 (by decide),
    W2_keep m ρ c main_v9 (by decide), W2_keep m ρ c main_v10 (by decide), W2_keep m ρ c main_v11 (by decide),
    W1_arg0, W1_arg2, W1_arg3, W1_v1, W1_v7, W1_v8, W1_v9, W1_v10, W1_v11]
  rfl

/-- The run: the result buffer ends at `result` of the arguments, the arguments as launched. -/
theorem run : θ_run defs (onTc (τ := τ) (main (F := Ideal))) ⟨m, fun _ => 0, ρ⟩ (fun r => ∀ c : Dev nD,
      r.2.mem ((c.tc : Thread nD τ).loc main_v27)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))) :=
  (θ_run defs _ _).mono (fun _ h c => ⟨(h c).1.trans (last_boundary m ρ c), (h c).2⟩)
    (Cert.KernelIdeal.RunValue.run_result (F := Ideal) m ρ)

end Cert.KernelIdeal.Value

end
-- ==== Proof.RefRunOps.lean ====
/-
  The reference program as one straight line of host operations.

  @main calls three outlined functions: @silu once, @_var once, and @_var calls @_where. A call executes the
  callee's body on the operands, each value of the body in a buffer of its own (the call's record), so the
  program is the list below: @main's own operations in order, with the nine operations of @silu, the twenty of
  @_var and the three of @_where written at their call sites over the records main_call0, main_call1 and
  main_call1_call0. Eighty-eight operations in all.
-/
import proofs.«123910_j14027363189335_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the three calls unfolded at their sites. -/
abbrev ops : List (HloOp τ sig (Elt F)) :=
  [ StableHlo.unary main_arg5 main_v0 ((transpose S512x512 [1, 0] · transposes_S512x512_S512x512_1_0) : (⟨S512x512, .f32⟩ : BufTy).Contents (Elt F) → (⟨S512x512, .f32⟩ : BufTy).Contents (Elt F)),  -- %0 = stablehlo.transpose %arg5, dims = [1, 0]
    StableHlo.binary main_arg1 main_v0 main_v1 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),  -- %1 = stablehlo.dot_general %arg1, %0, contracting_dims = [1] x [0], precision = [DEFAULT, DEFAULT]
    StableHlo.unary main_arg6 main_v2 ((transpose S512x512 [1, 0] · transposes_S512x512_S512x512_1_0) : (⟨S512x512, .f32⟩ : BufTy).Contents (Elt F) → (⟨S512x512, .f32⟩ : BufTy).Contents (Elt F)),  -- %2 = stablehlo.transpose %arg6, dims = [1, 0]
    StableHlo.binary main_arg1 main_v2 main_v3 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),  -- %3 = stablehlo.dot_general %arg1, %2, contracting_dims = [1] x [0], precision = [DEFAULT, DEFAULT]
    StableHlo.unary main_arg4 main_v4 ((transpose S512x512 [1, 0] · transposes_S512x512_S512x512_1_0) : (⟨S512x512, .f32⟩ : BufTy).Contents (Elt F) → (⟨S512x512, .f32⟩ : BufTy).Contents (Elt F)),  -- %4 = stablehlo.transpose %arg4, dims = [1, 0]
    StableHlo.binary main_arg0 main_v4 main_v5 ((fun l r => Host.dotGeneral dot_S160000x512_S512x512_S160000x512_1_0_0_1_n_n none l r) : (⟨S160000x512, .f32⟩ : BufTy).Contents (Elt F) → (⟨S512x512, .f32⟩ : BufTy).Contents (Elt F) → (⟨S160000x512, .f32⟩ : BufTy).Contents (Elt F)),  -- %5 = stablehlo.dot_general %arg0, %4, contracting_dims = [1] x [0], precision = [DEFAULT, DEFAULT]
    StableHlo.nullary main_c (constantI S_ 32 0#32),  -- %c = stablehlo.constant dense<0>
    StableHlo.unary main_c main_v6 (broadcastInDim S160000 ![] bcast_S_S160000 : (⟨S_, .i32⟩ : BufTy).Contents (Elt F) → (⟨S160000, .i32⟩ : BufTy).Contents (Elt F)),  -- %6 = stablehlo.broadcast_in_dim %c, dims = []
    StableHlo.binary main_arg2 main_v6 main_v7 (cmpi .slt : (⟨S160000, .i32⟩ : BufTy).Contents (Elt F) → (⟨S160000, .i32⟩ : BufTy).Contents (Elt F) → (⟨S160000, .i1⟩ : BufTy).Contents (Elt F)),  -- %7 = stablehlo.compare LT, %arg2, %6, SIGNED
    StableHlo.nullary main_c_0 (constantI S_ 32 10000#32),  -- %c_0 = stablehlo.constant dense<10000>
    StableHlo.unary main_c_0 main_v8 (broadcastInDim S160000 ![] bcast_S_S160000 : (⟨S_, .i32⟩ : BufTy).Contents (Elt F) → (⟨S160000, .i32⟩ : BufTy).Contents (Elt F)),  -- %8 = stablehlo.broadcast_in_dim %c_0, dims = []
    StableHlo.binary main_arg2 main_v8 main_v9 (addi : (⟨S160000, .i32⟩ : BufTy).Contents (Elt F) → (⟨S160000, .i32⟩ : BufTy).Contents (Elt F) → (⟨S160000, .i32⟩ : BufTy).Contents (Elt F)),  -- %9 = stablehlo.add %arg2, %8
    StableHlo.ternary main_v7 main_v9 main_arg2 main_v10 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),  -- %10 = stablehlo.select %7, %9, %arg2
    StableHlo.unary main_v10 main_v11 (broadcastInDim S160000x1 ![0] bcast_S160000_S160000x1_0 : (⟨S160000, .i32⟩ : BufTy).Contents (Elt F) → (⟨S160000x1, .i32⟩ : BufTy).Contents (Elt F)),  -- %11 = stablehlo.broadcast_in_dim %10, dims = [0]
    StableHlo.binary main_v1 main_v11 main_v12 ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)),  -- %12 = "stablehlo.gather"(%1, %11) <{dimension_numbers = #stablehlo.gather<offset_dims = [1], collapsed_slice_dims = [0], start_index_map = [0], index_vector_dim = 1>, indices_are_sorted = false, slice_sizes = array<i64: 1, 512>}>
    StableHlo.binary main_v5 main_v12 main_v13 (addf : (⟨S160000x512, .f32⟩ : BufTy).Contents (Elt F) → (⟨S160000x512, .f32⟩ : BufTy).Contents (Elt F) → (⟨S160000x512, .f32⟩ : BufTy).Contents (Elt F)),  -- %13 = stablehlo.add %5, %12
    StableHlo.nullary main_c_1 (constantI S_ 32 0#32),  -- %c_1 = stablehlo.constant dense<0>
    StableHlo.unary main_c_1 main_v14 (broadcastInDim S160000 ![] bcast_S_S160000 : (⟨S_, .i32⟩ : BufTy).Contents (Elt F) → (⟨S160000, .i32⟩ : BufTy).Contents (Elt F)),  -- %14 = stablehlo.broadcast_in_dim %c_1, dims = []
    StableHlo.binary main_arg3 main_v14 main_v15 (cmpi .slt : (⟨S160000, .i32⟩ : BufTy).Contents (Elt F) → (⟨S160000, .i32⟩ : BufTy).Contents (Elt F) → (⟨S160000, .i1⟩ : BufTy).Contents (Elt F)),  -- %15 = stablehlo.compare LT, %arg3, %14, SIGNED
    StableHlo.nullary main_c_2 (constantI S_ 32 10000#32),  -- %c_2 = stablehlo.constant dense<10000>
    StableHlo.unary main_c_2 main_v16 (broadcastInDim S160000 ![] bcast_S_S160000 : (⟨S_, .i32⟩ : BufTy).Contents (Elt F) → (⟨S160000, .i32⟩ : BufTy).Contents (Elt F)),  -- %16 = stablehlo.broadcast_in_dim %c_2, dims = []
    StableHlo.binary main_arg3 main_v16 main_v17 (addi : (⟨S160000, .i32⟩ : BufTy).Contents (Elt F) → (⟨S160000, .i32⟩ : BufTy).Contents (Elt F) → (⟨S160000, .i32⟩ : BufTy).Contents (Elt F)),  -- %17 = stablehlo.add %arg3, %16
    StableHlo.ternary main_v15 main_v17 main_arg3 main_v18 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),  -- %18 = stablehlo.select %15, %17, %arg3
    StableHlo.unary main_v18 main_v19 (broadcastInDim S160000x1 ![0] bcast_S160000_S160000x1_0 : (⟨S160000, .i32⟩ : BufTy).Contents (Elt F) → (⟨S160000x1, .i32⟩ : BufTy).Contents (Elt F)),  -- %19 = stablehlo.broadcast_in_dim %18, dims = [0]
    StableHlo.binary main_v3 main_v19 main_v20 ((fun x i => Host.gather gather_S10000x512_S160000x1_S160000x512_1_0_n_n_0_1_1512 x i) : (⟨S10000x512, .f32⟩ : BufTy).Contents (Elt F) → (⟨S160000x1, .i32⟩ : BufTy).Contents (Elt F) → (⟨S160000x512, .f32⟩ : BufTy).Contents (Elt F)),  -- %20 = "stablehlo.gather"(%3, %19) <{dimension_numbers = #stablehlo.gather<offset_dims = [1], collapsed_slice_dims = [0], start_index_map = [0], index_vector_dim = 1>, indices_are_sorted = false, slice_sizes = array<i64: 1, 512>}>
    StableHlo.binary main_v13 main_v20 main_v21 (addf : (⟨S160000x512, .f32⟩ : BufTy).Contents (Elt F) → (⟨S160000x512, .f32⟩ : BufTy).Contents (Elt F) → (⟨S160000x512, .f32⟩ : BufTy).Contents (Elt F)),  -- %21 = stablehlo.add %13, %20
    StableHlo.unary main_arg7 main_v22 (broadcastInDim S1x512 ![1] bcast_S512_S1x512_1 : (⟨S512, .f32⟩ : BufTy).Contents (Elt F) → (⟨S1x512, .f32⟩ : BufTy).Contents (Elt F)),  -- %22 = stablehlo.broadcast_in_dim %arg7, dims = [1]
    StableHlo.unary main_v22 main_v23 (broadcastInDim S160000x512 ![0, 1] bcast_S1x512_S160000x512_0_1 : (⟨S1x512, .f32⟩ : BufTy).Contents (Elt F) → (⟨S160000x512, .f32⟩ : BufTy).Contents (Elt F)),  -- %23 = stablehlo.broadcast_in_dim %22, dims = [0, 1]
    StableHlo.binary main_v21 main_v23 main_v24 (addf : (⟨S160000x512, .f32⟩ : BufTy).Contents (Elt F) → (⟨S160000x512, .f32⟩ : BufTy).Contents (Elt F) → (⟨S160000x512, .f32⟩ : BufTy).Contents (Elt F)),  -- %24 = stablehlo.add %21, %23
    TRef.unary (.of main_v24) main_call0.v0 Host.negf,  -- @silu %0 = negate %arg0
    TRef.unary main_call0.v0 main_call0.v1 Host.exp,  -- @silu %1 = exponential %0
    TRef.nullary main_call0.cst (constant S_ .f32 0x3F800000#32),  -- @silu %cst = 1.0
    TRef.unary main_call0.cst main_call0.v2 (broadcastInDim S160000x512 ![] bcast_S_S160000x512),  -- @silu %2 = broadcast_in_dim %cst, dims = []
    TRef.binary main_call0.v2 main_call0.v1 main_call0.v3 addf,  -- @silu %3 = add %2, %1
    TRef.nullary main_call0.cst_0 (constant S_ .f32 0x3F800000#32),  -- @silu %cst_0 = 1.0
    TRef.unary main_call0.cst_0 main_call0.v4 (broadcastInDim S160000x512 ![] bcast_S_S160000x512),  -- @silu %4 = broadcast_in_dim %cst_0, dims = []
    TRef.binary main_call0.v4 main_call0.v3 main_call0.v5 Host.divf,  -- @silu %5 = divide %4, %3
    TRef.binary (.of main_v24) main_call0.v5 main_call0.v6 mulf,  -- @silu %6 = multiply %arg0, %5   (%25)
    StableHlo.unary main_arg8 main_v26 ((transpose S512x512 [1, 0] · transposes_S512x512_S512x512_1_0) : (⟨S512x512, .f32⟩ : BufTy).Contents (Elt F) → (⟨S512x512, .f32⟩ : BufTy).Contents (Elt F)),  -- %26 = stablehlo.transpose %arg8, dims = [1, 0]
    StableHlo.binary main_v25 main_v26 main_v27 ((fun l r => Host.dotGeneral dot_S160000x512_S512x512_S160000x512_1_0_0_1_n_n none l r) : (⟨S160000x512, .f32⟩ : BufTy).Contents (Elt F) → (⟨S512x512, .f32⟩ : BufTy).Contents (Elt F) → (⟨S160000x512, .f32⟩ : BufTy).Contents (Elt F)),  -- %27 = stablehlo.dot_general %25, %26, contracting_dims = [1] x [0], precision = [DEFAULT, DEFAULT]
    StableHlo.unary main_arg9 main_v28 (broadcastInDim S1x512 ![1] bcast_S512_S1x512_1 : (⟨S512, .f32⟩ : BufTy).Contents (Elt F) → (⟨S1x512, .f32⟩ : BufTy).Contents (Elt F)),  -- %28 = stablehlo.broadcast_in_dim %arg9, dims = [1]
    StableHlo.unary main_v28 main_v29 (broadcastInDim S160000x512 ![0, 1] bcast_S1x512_S160000x512_0_1 : (⟨S1x512, .f32⟩ : BufTy).Contents (Elt F) → (⟨S160000x512, .f32⟩ : BufTy).Contents (Elt F)),  -- %29 = stablehlo.broadcast_in_dim %28, dims = [0, 1]
    StableHlo.binary main_v27 main_v29 main_v30 (addf : (⟨S160000x512, .f32⟩ : BufTy).Contents (Elt F) → (⟨S160000x512, .f32⟩ : BufTy).Contents (Elt F) → (⟨S160000x512, .f32⟩ : BufTy).Contents (Elt F)),  -- %30 = stablehlo.add %27, %29
    StableHlo.nullary main_cst (constant S_ .f32 0x00000000#32),  -- %cst = stablehlo.constant dense<0.000000e+00>
    StableHlo.binary main_v30 main_cst main_v31 ((fun x v => Host.reduceAdd x v reducesTo_S160000x512_S160000_d1 h_S_) : (⟨S160000x512, .f32⟩ : BufTy).Contents (Elt F) → (⟨S_, .f32⟩ : BufTy).Contents (Elt F) → (⟨S160000, .f32⟩ : BufTy).Contents (Elt F)),  -- %31 = stablehlo.reduce(%30 init: %cst) applies stablehlo.add across dimensions = [1]
    StableHlo.unary main_v31 main_v32 (broadcastInDim S160000x1 ![0] bcast_S160000_S160000x1_0 : (⟨S160000, .f32⟩ : BufTy).Contents (Elt F) → (⟨S160000x1, .f32⟩ : BufTy).Contents (Elt F)),  -- %32 = stablehlo.broadcast_in_dim %31, dims = [0]
    StableHlo.nullary main_cst_3 (constant S_ .f32 0x44000000#32),  -- %cst_3 = stablehlo.constant dense<5.120000e+02>
    StableHlo.unary main_cst_3 main_v33 (broadcastInDim S160000x1 ![] bcast_S_S160000x1 : (⟨S_, .f32⟩ : BufTy).Contents (Elt F) → (⟨S160000x1, .f32⟩ : BufTy).Contents (Elt F)),  -- %33 = stablehlo.broadcast_in_dim %cst_3, dims = []
    StableHlo.binary main_v32 main_v33 main_v34 (Host.divf : (⟨S160000x1, .f32⟩ : BufTy).Contents (Elt F) → (⟨S160000x1, .f32⟩ : BufTy).Contents (Elt F) → (⟨S160000x1, .f32⟩ : BufTy).Contents (Elt F)),  -- %34 = stablehlo.divide %32, %33
    StableHlo.nullary main_c_4 (constantI S_ 32 0#32),  -- %c_4 = stablehlo.constant dense<0>
    TRef.nullary main_call1.cst (constant S_ .f32 0x00000000#32),  -- @_var %cst = 0.0
    TRef.binary (.of main_v30) main_call1.cst main_call1.v0 (fun x v => Host.reduceAdd x v reducesTo_S160000x512_S160000_d1 h_S_),  -- @_var %0 = reduce add %arg0 init %cst, dims = [1]
    TRef.unary main_call1.v0 main_call1.v1 (broadcastInDim S160000x1 ![0] bcast_S160000_S160000x1_0),  -- @_var %1 = broadcast_in_dim %0, dims = [0]
    TRef.nullary main_call1.cst_0 (constant S_ .f32 0x44000000#32),  -- @_var %cst_0 = 512.0
    TRef.unary main_call1.cst_0 main_call1.v2 (broadcastInDim S160000x1 ![] bcast_S_S160000x1),  -- @_var %2 = broadcast_in_dim %cst_0, dims = []
    TRef.binary main_call1.v1 main_call1.v2 main_call1.v3 Host.divf,  -- @_var %3 = divide %1, %2
    TRef.unary main_call1.v3 main_call1.v4 (broadcastInDim S160000x512 ![0, 1] bcast_S160000x1_S160000x512_0_1),  -- @_var %4 = broadcast_in_dim %3, dims = [0, 1]
    TRef.binary (.of main_v30) main_call1.v4 main_call1.v5 subf,  -- @_var %5 = subtract %arg0, %4
    TRef.binary main_call1.v5 main_call1.v5 main_call1.v6 mulf,  -- @_var %6 = square %5
    TRef.unary (.of main_c_4) main_call1.v7 (sitofp .f32),  -- @_var %7 = convert %arg1
    TRef.nullary main_call1.cst_1 (constant S_ .f32 0x44000000#32),  -- @_var %cst_1 = 512.0
    TRef.binary main_call1.cst_1 main_call1.v7 main_call1.v8 subf,  -- @_var %8 = subtract %cst_1, %7
    TRef.nullary main_call1.cst_2 (constant S_ .f32 0x00000000#32),  -- @_var %cst_2 = 0.0
    TRef.binary main_call1.v6 main_call1.cst_2 main_call1.v9 (fun x v => Host.reduceAdd x v reducesTo_S160000x512_S160000_d1 h_S_),  -- @_var %9 = reduce add %6 init %cst_2, dims = [1]
    TRef.unary main_call1.v9 main_call1.v10 (broadcastInDim S160000x1 ![0] bcast_S160000_S160000x1_0),  -- @_var %10 = broadcast_in_dim %9, dims = [0]
    TRef.unary main_call1.v8 main_call1.v11 (broadcastInDim S160000x1 ![] bcast_S_S160000x1),  -- @_var %11 = broadcast_in_dim %8, dims = []
    TRef.binary main_call1.v10 main_call1.v11 main_call1.v12 Host.divf,  -- @_var %12 = divide %10, %11
    TRef.nullary main_call1.cst_3 (constant S_ .f32 0x00000000#32),  -- @_var %cst_3 = 0.0
    TRef.binary main_call1.v8 main_call1.cst_3 main_call1.v13 (cmpf .ogt),  -- @_var %13 = compare GT, %8, %cst_3
    TRef.nullary main_call1.cst_4 (constant S_ .f32 0x7FC00000#32),  -- @_var %cst_4 = the quiet-NaN word
    TRef.unary main_call1.cst_4 main_call1.call0.v0 id,  -- @_where %0 = convert %arg2
    TRef.unary main_call1.call0.v0 main_call1.call0.v1 (broadcastInDim S160000x1 ![] bcast_S_S160000x1),  -- @_where %1 = broadcast_in_dim %0, dims = []
    TRef.ternary main_call1.v13 main_call1.v12 main_call1.call0.v1 main_call1.call0.v2 (fun p a b => select (broadcastInDim S160000x1 ![] bcast_S_S160000x1 p) a b),  -- @_where %2 = select %arg0, %arg1, %1   (%35)
    StableHlo.unary main_v34 main_v36 (broadcastInDim S160000x512 ![0, 1] bcast_S160000x1_S160000x512_0_1 : (⟨S160000x1, .f32⟩ : BufTy).Contents (Elt F) → (⟨S160000x512, .f32⟩ : BufTy).Contents (Elt F)),  -- %36 = stablehlo.broadcast_in_dim %34, dims = [0, 1]
    StableHlo.binary main_v30 main_v36 main_v37 (subf : (⟨S160000x512, .f32⟩ : BufTy).Contents (Elt F) → (⟨S160000x512, .f32⟩ : BufTy).Contents (Elt F) → (⟨S160000x512, .f32⟩ : BufTy).Contents (Elt F)),  -- %37 = stablehlo.subtract %30, %36
    StableHlo.nullary main_cst_5 (constant S_ .f32 0x3727C5AC#32),  -- %cst_5 = stablehlo.constant dense<9.99999974E-6>
    StableHlo.unary main_cst_5 main_v38 (broadcastInDim S160000x1 ![] bcast_S_S160000x1 : (⟨S_, .f32⟩ : BufTy).Contents (Elt F) → (⟨S160000x1, .f32⟩ : BufTy).Contents (Elt F)),  -- %38 = stablehlo.broadcast_in_dim %cst_5, dims = []
    StableHlo.binary main_v35 main_v38 main_v39 (addf : (⟨S160000x1, .f32⟩ : BufTy).Contents (Elt F) → (⟨S160000x1, .f32⟩ : BufTy).Contents (Elt F) → (⟨S160000x1, .f32⟩ : BufTy).Contents (Elt F)),  -- %39 = stablehlo.add %35, %38
    StableHlo.unary main_v39 main_v40 (Host.rsqrt : (⟨S160000x1, .f32⟩ : BufTy).Contents (Elt F) → (⟨S160000x1, .f32⟩ : BufTy).Contents (Elt F)),  -- %40 = stablehlo.rsqrt %39
    StableHlo.unary main_v40 main_v41 (broadcastInDim S160000x512 ![0, 1] bcast_S160000x1_S160000x512_0_1 : (⟨S160000x1, .f32⟩ : BufTy).Contents (Elt F) → (⟨S160000x512, .f32⟩ : BufTy).Contents (Elt F)),  -- %41 = stablehlo.broadcast_in_dim %40, dims = [0, 1]
    StableHlo.binary main_v37 main_v41 main_v42 (mulf : (⟨S160000x512, .f32⟩ : BufTy).Contents (Elt F) → (⟨S160000x512, .f32⟩ : BufTy).Contents (Elt F) → (⟨S160000x512, .f32⟩ : BufTy).Contents (Elt F)),  -- %42 = stablehlo.multiply %37, %41
    StableHlo.unary main_arg10 main_v43 (broadcastInDim S1x512 ![1] bcast_S512_S1x512_1 : (⟨S512, .f32⟩ : BufTy).Contents (Elt F) → (⟨S1x512, .f32⟩ : BufTy).Contents (Elt F)),  -- %43 = stablehlo.broadcast_in_dim %arg10, dims = [1]
    StableHlo.unary main_v43 main_v44 (broadcastInDim S160000x512 ![0, 1] bcast_S1x512_S160000x512_0_1 : (⟨S1x512, .f32⟩ : BufTy).Contents (Elt F) → (⟨S160000x512, .f32⟩ : BufTy).Contents (Elt F)),  -- %44 = stablehlo.broadcast_in_dim %43, dims = [0, 1]
    StableHlo.binary main_v42 main_v44 main_v45 (mulf : (⟨S160000x512, .f32⟩ : BufTy).Contents (Elt F) → (⟨S160000x512, .f32⟩ : BufTy).Contents (Elt F) → (⟨S160000x512, .f32⟩ : BufTy).Contents (Elt F)),  -- %45 = stablehlo.multiply %42, %44
    StableHlo.unary main_arg11 main_v46 (broadcastInDim S1x512 ![1] bcast_S512_S1x512_1 : (⟨S512, .f32⟩ : BufTy).Contents (Elt F) → (⟨S1x512, .f32⟩ : BufTy).Contents (Elt F)),  -- %46 = stablehlo.broadcast_in_dim %arg11, dims = [1]
    StableHlo.unary main_v46 main_v47 (broadcastInDim S160000x512 ![0, 1] bcast_S1x512_S160000x512_0_1 : (⟨S1x512, .f32⟩ : BufTy).Contents (Elt F) → (⟨S160000x512, .f32⟩ : BufTy).Contents (Elt F)),  -- %47 = stablehlo.broadcast_in_dim %46, dims = [0, 1]
    StableHlo.binary main_v45 main_v47 main_v48 (addf : (⟨S160000x512, .f32⟩ : BufTy).Contents (Elt F) → (⟨S160000x512, .f32⟩ : BufTy).Contents (Elt F) → (⟨S160000x512, .f32⟩ : BufTy).Contents (Elt F)),  -- %48 = stablehlo.add %45, %47
    StableHlo.binary main_v48 main_arg0 main_v49 (addf : (⟨S160000x512, .f32⟩ : BufTy).Contents (Elt F) → (⟨S160000x512, .f32⟩ : BufTy).Contents (Elt F) → (⟨S160000x512, .f32⟩ : BufTy).Contents (Elt F)) ]  -- %49 = stablehlo.add %48, %arg0

/-- @main is that straight line: the callees' bodies unfolded at the calls, the sequencing reassociated. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., binary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., unary_bufs_sub .., binary_bufs_sub .., unary_bufs_sub .., unary_bufs_sub ..,
    binary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub ..⟩

/-! ## What the line writes

Every operation writes one buffer, a value of the program; no operation writes an argument. -/

/-- The buffers the operations write, in order: the program's eighty-eight values. -/
abbrev ops_W : List (Ref sig .tc) :=
  [ main_v0, main_v1, main_v2, main_v3, main_v4, main_v5, main_c, main_v6, main_v7, main_c_0,
    main_v8, main_v9, main_v10, main_v11, main_v12, main_v13, main_c_1, main_v14, main_v15, main_c_2,
    main_v16, main_v17, main_v18, main_v19, main_v20, main_v21, main_v22, main_v23, main_v24, main_call0_v0,
    main_call0_v1, main_call0_cst, main_call0_v2, main_call0_v3, main_call0_cst_0, main_call0_v4, main_call0_v5, main_v25, main_v26, main_v27,
    main_v28, main_v29, main_v30, main_cst, main_v31, main_v32, main_cst_3, main_v33, main_v34, main_c_4,
    main_call1_cst, main_call1_v0, main_call1_v1, main_call1_cst_0, main_call1_v2, main_call1_v3, main_call1_v4, main_call1_v5, main_call1_v6, main_call1_v7,
    main_call1_cst_1, main_call1_v8, main_call1_cst_2, main_call1_v9, main_call1_v10, main_call1_v11, main_call1_v12, main_call1_cst_3, main_call1_v13, main_call1_cst_4,
    main_call1_call0_v0, main_call1_call0_v1, main_v35, main_v36, main_v37, main_cst_5, main_v38, main_v39, main_v40, main_v41,
    main_v42, main_v43, main_v44, main_v45, main_v46, main_v47, main_v48, main_v49 ]

theorem ops_writes : (ops : List (HloOp τ sig (Elt F))).Forall fun op =>
    op.writes ⊆ (ops_W.map (Proc.devRef (τ := τ) .tc)).toFinset := by
  simp only [List.Forall, nullary_writes, unary_writes, binary_writes, ternary_writes, Finset.singleton_subset_iff,
    List.mem_toFinset]
  repeat' apply And.intro
  all_goals exact List.mem_map_of_mem (by decide)

/-- A buffer that is not a value of the program keeps its contents through the line. -/
theorem after_of_not_value (V : Valuation τ sig (Elt F)) (r : Ref sig .tc) (h : r ∉ ops_W) :
    after ops V (Proc.devRef .tc r) = V (Proc.devRef .tc r) :=
  after_of_writes_sub ops V ops_writes h

/-- From any memory with zero counters every weakly fair execution of @main terminates, each buffer of the
    device ending at the fold of the operations over the launch contents. -/
theorem run_ops (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefStages.lean ====
/-
  The reference program's first result as a function of its twelve arguments, in three stages.

  Each definition is the composition of the printed operations in the printed order, one line per value of the
  program, over the program's own shape records and stated side conditions: the index columns (`startIdx`), a
  node projection (`nodeProj`), and the edge update (`tail`), in which the two gathered node projections enter
  as arrays; `result` puts the stages together as @main does. The three functions @main calls (@silu, @_var and
  @_where, which @_var calls) are written at their call sites.
-/
import proofs.«123910_j14027363189335_2_alg».proof.ReferenceIdeal

noncomputable section

namespace Cert.ReferenceIdeal.HandRun

open Cert.ReferenceIdeal Idealize.ShloMosaic

variable {F : FTy → Type} [FloatOps F] [Facts₀]
open Facts₀

/-- %6 … %11 (and identically %14 … %19): an index column. A negative index is moved up by the number of rows,
    10000, and the vector is placed as a column `[160000, 1]`. -/
def startIdx (s : (⟨S160000, .i32⟩ : BufTy).Contents (Elt F)) : (⟨S160000x1, .i32⟩ : BufTy).Contents (Elt F) :=
  have c : IVec S_ 32 := constantI S_ 32 0#32                                                  -- %c = 0
  have v6 : IVec S160000 32 := broadcastInDim S160000 ![] bcast_S_S160000 c                    -- %6 = broadcast_in_dim %c, dims = []
  have v7 : IVec S160000 1 := cmpi .slt s v6                                                   -- %7 = compare LT, %arg2, %6, SIGNED
  have c_0 : IVec S_ 32 := constantI S_ 32 10000#32                                            -- %c_0 = 10000
  have v8 : IVec S160000 32 := broadcastInDim S160000 ![] bcast_S_S160000 c_0                  -- %8 = broadcast_in_dim %c_0, dims = []
  have v9 : IVec S160000 32 := addi s v8                                                       -- %9 = add %arg2, %8
  have v10 : IVec S160000 32 := select v7 v9 s                                                 -- %10 = select %7, %9, %arg2
  broadcastInDim S160000x1 ![0] bcast_S160000_S160000x1_0 v10                                  -- %11 = broadcast_in_dim %10, dims = [0]

/-- %0, %1 (and identically %2, %3): the node features times a transposed weight. -/
def nodeProj (x : FVec F S10000x512 .f32) (W : FVec F S512x512 .f32) : FVec F S10000x512 .f32 :=
  have v0 : FVec F S512x512 .f32 := transpose S512x512 [1, 0] W transposes_S512x512_S512x512_1_0                                          -- %0 = transpose %arg5, dims = [1, 0]
  Host.dotGeneral dot_S10000x512_S512x512_S10000x512_1_0_0_1_n_n none x v0                                                            -- %1 = dot_general %arg1, %0, contracting_dims = [1] x [0]

/-- %4, %5, %13 and %21 … %49, with @silu, @_var and @_where written at their call sites: the edge update from the
    edge features `efeat`, the two gathered node projections `sg` (%12) and `dg` (%20), the weights and the rows. -/
def tail (efeat sg dg : FVec F S160000x512 .f32) (We : FVec F S512x512 .f32) (b1 : FVec F S512 .f32) (W2 : FVec F S512x512 .f32) (b2 g b : FVec F S512 .f32) : FVec F S160000x512 .f32 :=
  have v4 : FVec F S512x512 .f32 := transpose S512x512 [1, 0] We transposes_S512x512_S512x512_1_0                                         -- %4 = transpose %arg4, dims = [1, 0]
  have v5 : FVec F S160000x512 .f32 := Host.dotGeneral dot_S160000x512_S512x512_S160000x512_1_0_0_1_n_n none efeat v4                                      -- %5 = dot_general %arg0, %4
  have v13 : FVec F S160000x512 .f32 := addf v5 sg                                                                -- %13 = add %5, %12
  have v21 : FVec F S160000x512 .f32 := addf v13 dg                                                               -- %21 = add %13, %20
  have v22 : FVec F S1x512 .f32 := broadcastInDim S1x512 ![1] bcast_S512_S1x512_1 b1                        -- %22 = broadcast_in_dim %arg7, dims = [1]
  have v23 : FVec F S160000x512 .f32 := broadcastInDim S160000x512 ![0, 1] bcast_S1x512_S160000x512_0_1 v22       -- %23 = broadcast_in_dim %22, dims = [0, 1]
  have v24 : FVec F S160000x512 .f32 := addf v21 v23                                                              -- %24 = add %21, %23
  -- %25 = call @silu(%24)
  have s0 : FVec F S160000x512 .f32 := Host.negf v24                                                              -- @silu %0 = negate %arg0
  have s1 : FVec F S160000x512 .f32 := Host.exp s0                                                                -- @silu %1 = exponential %0
  have s_cst : FVec F S_ .f32 := constant S_ .f32 0x3F800000#32                                         -- @silu %cst = 1.0
  have s2 : FVec F S160000x512 .f32 := broadcastInDim S160000x512 ![] bcast_S_S160000x512 s_cst                   -- @silu %2 = broadcast_in_dim %cst, dims = []
  have s3 : FVec F S160000x512 .f32 := addf s2 s1                                                                 -- @silu %3 = add %2, %1
  have s_cst_0 : FVec F S_ .f32 := constant S_ .f32 0x3F800000#32                                       -- @silu %cst_0 = 1.0
  have s4 : FVec F S160000x512 .f32 := broadcastInDim S160000x512 ![] bcast_S_S160000x512 s_cst_0                 -- @silu %4 = broadcast_in_dim %cst_0, dims = []
  have s5 : FVec F S160000x512 .f32 := Host.divf s4 s3                                                            -- @silu %5 = divide %4, %3
  have v25 : FVec F S160000x512 .f32 := mulf v24 s5                                                               -- @silu %6 = multiply %arg0, %5
  have v26 : FVec F S512x512 .f32 := transpose S512x512 [1, 0] W2 transposes_S512x512_S512x512_1_0                                        -- %26 = transpose %arg8, dims = [1, 0]
  have v27 : FVec F S160000x512 .f32 := Host.dotGeneral dot_S160000x512_S512x512_S160000x512_1_0_0_1_n_n none v25 v26                                      -- %27 = dot_general %25, %26
  have v28 : FVec F S1x512 .f32 := broadcastInDim S1x512 ![1] bcast_S512_S1x512_1 b2                        -- %28 = broadcast_in_dim %arg9, dims = [1]
  have v29 : FVec F S160000x512 .f32 := broadcastInDim S160000x512 ![0, 1] bcast_S1x512_S160000x512_0_1 v28       -- %29 = broadcast_in_dim %28, dims = [0, 1]
  have v30 : FVec F S160000x512 .f32 := addf v27 v29                                                              -- %30 = add %27, %29
  have cst : FVec F S_ .f32 := constant S_ .f32 0x00000000#32                                           -- %cst = 0.0
  have v31 : FVec F S160000 .f32 := Host.reduceAdd v30 cst reducesTo_S160000x512_S160000_d1 h_S_                                              -- %31 = reduce add %30 init %cst, dims = [1]
  have v32 : FVec F S160000x1 .f32 := broadcastInDim S160000x1 ![0] bcast_S160000_S160000x1_0 v31              -- %32 = broadcast_in_dim %31, dims = [0]
  have cst_3 : FVec F S_ .f32 := constant S_ .f32 0x44000000#32                                         -- %cst_3 = 512.0
  have v33 : FVec F S160000x1 .f32 := broadcastInDim S160000x1 ![] bcast_S_S160000x1 cst_3                     -- %33 = broadcast_in_dim %cst_3, dims = []
  have v34 : FVec F S160000x1 .f32 := Host.divf v32 v33                                                        -- %34 = divide %32, %33
  have c_4 : IVec S_ 32 := constantI S_ 32 0#32                                                -- %c_4 = 0
  -- %35 = call @_var(%30, %c_4)
  have r_cst : FVec F S_ .f32 := constant S_ .f32 0x00000000#32                                         -- @_var %cst = 0.0
  have r0 : FVec F S160000 .f32 := Host.reduceAdd v30 r_cst reducesTo_S160000x512_S160000_d1 h_S_                                             -- @_var %0 = reduce add %arg0 init %cst, dims = [1]
  have r1 : FVec F S160000x1 .f32 := broadcastInDim S160000x1 ![0] bcast_S160000_S160000x1_0 r0                -- @_var %1 = broadcast_in_dim %0, dims = [0]
  have r_cst_0 : FVec F S_ .f32 := constant S_ .f32 0x44000000#32                                       -- @_var %cst_0 = 512.0
  have r2 : FVec F S160000x1 .f32 := broadcastInDim S160000x1 ![] bcast_S_S160000x1 r_cst_0                    -- @_var %2 = broadcast_in_dim %cst_0, dims = []
  have r3 : FVec F S160000x1 .f32 := Host.divf r1 r2                                                           -- @_var %3 = divide %1, %2
  have r4 : FVec F S160000x512 .f32 := broadcastInDim S160000x512 ![0, 1] bcast_S160000x1_S160000x512_0_1 r3      -- @_var %4 = broadcast_in_dim %3, dims = [0, 1]
  have r5 : FVec F S160000x512 .f32 := subf v30 r4                                                                -- @_var %5 = subtract %arg0, %4
  have r6 : FVec F S160000x512 .f32 := mulf r5 r5                                                                 -- @_var %6 = square %5
  have r7 : FVec F S_ .f32 := sitofp .f32 c_4                                                           -- @_var %7 = convert %arg1
  have r_cst_1 : FVec F S_ .f32 := constant S_ .f32 0x44000000#32                                       -- @_var %cst_1 = 512.0
  have r8 : FVec F S_ .f32 := subf r_cst_1 r7                                                           -- @_var %8 = subtract %cst_1, %7
  have r_cst_2 : FVec F S_ .f32 := constant S_ .f32 0x00000000#32                                       -- @_var %cst_2 = 0.0
  have r9 : FVec F S160000 .f32 := Host.reduceAdd r6 r_cst_2 reducesTo_S160000x512_S160000_d1 h_S_                                            -- @_var %9 = reduce add %6 init %cst_2, dims = [1]
  have r10 : FVec F S160000x1 .f32 := broadcastInDim S160000x1 ![0] bcast_S160000_S160000x1_0 r9               -- @_var %10 = broadcast_in_dim %9, dims = [0]
  have r11 : FVec F S160000x1 .f32 := broadcastInDim S160000x1 ![] bcast_S_S160000x1 r8                        -- @_var %11 = broadcast_in_dim %8, dims = []
  have r12 : FVec F S160000x1 .f32 := Host.divf r10 r11                                                        -- @_var %12 = divide %10, %11
  have r_cst_3 : FVec F S_ .f32 := constant S_ .f32 0x00000000#32                                       -- @_var %cst_3 = 0.0
  have r13 : IVec S_ 1 := cmpf .ogt r8 r_cst_3                                                 -- @_var %13 = compare GT, %8, %cst_3
  have r_cst_4 : FVec F S_ .f32 := constant S_ .f32 0x7FC00000#32                                       -- @_var %cst_4 = the quiet-NaN word
  -- @_var %14 = call @_where(%13, %12, %cst_4)
  have w0 : FVec F S_ .f32 := id r_cst_4                                                                -- @_where %0 = convert %arg2
  have w1 : FVec F S160000x1 .f32 := broadcastInDim S160000x1 ![] bcast_S_S160000x1 w0                         -- @_where %1 = broadcast_in_dim %0, dims = []
  have v35 : FVec F S160000x1 .f32 := select (broadcastInDim S160000x1 ![] bcast_S_S160000x1 r13) r12 w1       -- @_where %2 = select %arg0, %arg1, %1
  have v36 : FVec F S160000x512 .f32 := broadcastInDim S160000x512 ![0, 1] bcast_S160000x1_S160000x512_0_1 v34    -- %36 = broadcast_in_dim %34, dims = [0, 1]
  have v37 : FVec F S160000x512 .f32 := subf v30 v36                                                              -- %37 = subtract %30, %36
  have cst_5 : FVec F S_ .f32 := constant S_ .f32 0x3727C5AC#32                                         -- %cst_5 = 9.99999974E-6
  have v38 : FVec F S160000x1 .f32 := broadcastInDim S160000x1 ![] bcast_S_S160000x1 cst_5                     -- %38 = broadcast_in_dim %cst_5, dims = []
  have v39 : FVec F S160000x1 .f32 := addf v35 v38                                                             -- %39 = add %35, %38
  have v40 : FVec F S160000x1 .f32 := Host.rsqrt v39                                                           -- %40 = rsqrt %39
  have v41 : FVec F S160000x512 .f32 := broadcastInDim S160000x512 ![0, 1] bcast_S160000x1_S160000x512_0_1 v40    -- %41 = broadcast_in_dim %40, dims = [0, 1]
  have v42 : FVec F S160000x512 .f32 := mulf v37 v41                                                              -- %42 = multiply %37, %41
  have v43 : FVec F S1x512 .f32 := broadcastInDim S1x512 ![1] bcast_S512_S1x512_1 g                         -- %43 = broadcast_in_dim %arg10, dims = [1]
  have v44 : FVec F S160000x512 .f32 := broadcastInDim S160000x512 ![0, 1] bcast_S1x512_S160000x512_0_1 v43       -- %44 = broadcast_in_dim %43, dims = [0, 1]
  have v45 : FVec F S160000x512 .f32 := mulf v42 v44                                                              -- %45 = multiply %42, %44
  have v46 : FVec F S1x512 .f32 := broadcastInDim S1x512 ![1] bcast_S512_S1x512_1 b                         -- %46 = broadcast_in_dim %arg11, dims = [1]
  have v47 : FVec F S160000x512 .f32 := broadcastInDim S160000x512 ![0, 1] bcast_S1x512_S160000x512_0_1 v46       -- %47 = broadcast_in_dim %46, dims = [0, 1]
  have v48 : FVec F S160000x512 .f32 := addf v45 v47                                                              -- %48 = add %45, %47
  addf v48 efeat                                                                               -- %49 = add %48, %arg0

/-- @main's first result as a function of its twelve arguments: the edge update of the edge features `a0` with the
    rows of the two node projections gathered at the (wrapped) source and destination indices. -/
def result (a0 : FVec F S160000x512 .f32) (a1 : FVec F S10000x512 .f32) (a2 a3 : IVec S160000 32) (a4 a5 a6 : FVec F S512x512 .f32) (a7 : FVec F S512 .f32)
    (a8 : FVec F S512x512 .f32) (a9 a10 a11 : FVec F S512 .f32) : FVec F S160000x512 .f32 :=
  tail a0 (Host.gather gather_S10000x512_S160000x1_S160000x512_1_0_n_n_0_1_1512 (nodeProj a1 a5) (startIdx (F := F) a2))                        -- %12 = gather %1, %11
    (Host.gather gather_S10000x512_S160000x1_S160000x512_1_0_n_n_0_1_1512 (nodeProj a1 a6) (startIdx (F := F) a3))                              -- %20 = gather %3, %19
    a4 a7 a8 a9 a10 a11

end Cert.ReferenceIdeal.HandRun

end
-- ==== Proof.RefRun.lean ====
/-
  The reference program's run, read back: its first result as a function of the twelve arguments.

  The program is the straight line of RefRunOps. Its result buffer %49 ends at the composition of the operations
  over the launch contents of the arguments, and no operation writes an argument. The composition is `result`
  of RefStages: the index columns (`startIdx`), the node projections (`nodeProj`) and the edge update (`tail`)
  written line by line as the program is, so the two agree by unfolding.
-/
import proofs.«123910_j14027363189335_2_alg».proof.Proof.RefRunOps
import proofs.«123910_j14027363189335_2_alg».proof.Proof.RefStages

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The run -/

set_option maxRecDepth 16384 in
set_option maxHeartbeats 4000000 in
/-- The fold of the operations at the result buffer %49 is `result` of the arguments' contents. -/
theorem out_eq (V : Valuation τ sig (Elt F)) :
    after ops V (main_v49 : DevRef τ sig)
      = result (V (main_arg0 : DevRef τ sig)) (V (main_arg1 : DevRef τ sig)) (V (main_arg2 : DevRef τ sig)) (V (main_arg3 : DevRef τ sig)) (V (main_arg4 : DevRef τ sig)) (V (main_arg5 : DevRef τ sig))
          (V (main_arg6 : DevRef τ sig)) (V (main_arg7 : DevRef τ sig)) (V (main_arg8 : DevRef τ sig)) (V (main_arg9 : DevRef τ sig)) (V (main_arg10 : DevRef τ sig)) (V (main_arg11 : DevRef τ sig)) := by
  after_results_simp
  rfl

/-- From any memory with zero counters every weakly fair execution of @main terminates, the result buffer %49 at
    `result` of the arguments' launch contents, the twelve arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v49)
          = result (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9)) (m ((c.tc : Thread nD τ).loc main_arg10)) (m ((c.tc : Thread nD τ).loc main_arg11))
        ∧ (r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)
          ∧ r.2.mem ((c.tc : Thread nD τ).loc main_arg9) = m ((c.tc : Thread nD τ).loc main_arg9)
          ∧ r.2.mem ((c.tc : Thread nD τ).loc main_arg10) = m ((c.tc : Thread nD τ).loc main_arg10)
          ∧ r.2.mem ((c.tc : Thread nD τ).loc main_arg11) = m ((c.tc : Thread nD τ).loc main_arg11))) :=
  (θ_run defs _ _).mono (fun _ h c => ⟨(h c main_v49).trans (out_eq (launchContents m c)),
      (h c main_arg0).trans (after_of_not_value _ main_arg0 (by decide)),
      (h c main_arg1).trans (after_of_not_value _ main_arg1 (by decide)),
      (h c main_arg2).trans (after_of_not_value _ main_arg2 (by decide)),
      (h c main_arg3).trans (after_of_not_value _ main_arg3 (by decide)),
      (h c main_arg4).trans (after_of_not_value _ main_arg4 (by decide)),
      (h c main_arg5).trans (after_of_not_value _ main_arg5 (by decide)),
      (h c main_arg6).trans (after_of_not_value _ main_arg6 (by decide)),
      (h c main_arg7).trans (after_of_not_value _ main_arg7 (by decide)),
      (h c main_arg8).trans (after_of_not_value _ main_arg8 (by decide)),
      (h c main_arg9).trans (after_of_not_value _ main_arg9 (by decide)),
      (h c main_arg10).trans (after_of_not_value _ main_arg10 (by decide)),
      (h c main_arg11).trans (after_of_not_value _ main_arg11 (by decide))⟩)
    (run_ops m ρ)

end Cert.ReferenceIdeal.HandRun

end
-- ==== Proof.RefTail.lean ====
/-
  The reference's edge update, read entry by entry on the extended reals.

  For edge `e` write `Y e` for the second layer's row `silu (x · Weᵀ + ps + pd + b1) · W2ᵀ + b2`. The reference forms
  the whole array of these rows, a column of row means (the host's sum along the lanes from the zero word, over the
  literal 512), the centred array, a column of variances — the mean of the centred array's squares, whose divisor is
  written `512 − 0` and whose value passes a selection on the bit `512 − 0 > 0` —, and returns
  `centred · rsqrt (variance + 1e-5) · g + b + x`. The divisor is the literal 512 and the bit is set, so the
  selection returns the quotient; every other step is an entry-wise operation, a lane sum, a plain product, or a row,
  column or scalar broadcast, and is read at `(e, j)` by the corresponding entry lemma, in the specification's own
  order of operations.
-/
import proofs.«123910_j14027363189335_2_alg».proof.Proof.RefStages
import proofs.«123910_j14027363189335_2_alg».proof.Proof.EdgeSpec
import proofs.«123910_j14027363189335_2_alg».proof.Proof.LibRowMax
import proofs.«123910_j14027363189335_2_alg».proof.Proof.LibSilu
import Idealize.ShloMosaic.Lib.IdealHost

noncomputable section

namespace Cert.ReferenceIdeal.HandRun

open Idealize.ShloMosaic Idealize.ShloMosaic.ValueIdx Cert.ReferenceIdeal Cert.ReferenceIdeal.HandRun Cert.EdgeMlp

variable [Facts₀]
open Facts₀

/-! ## Layout forms -/

/-- An `[a]` vector placed as the column `[a, 1]` reads, at `(i, u)`, the vector at `i`. -/
theorem broadcastInDim_a_a1_apply {α : Type} {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A `[512]` row placed as `[1, 512]` and broadcast down the 160000 rows. -/
def rowBcast (r : FVec Ideal S512 .f32) : FVec Ideal S160000x512 .f32 :=
  broadcastInDim S160000x512 ![0, 1] bcast_S1x512_S160000x512_0_1 (broadcastInDim S1x512 ![1] bcast_S512_S1x512_1 r)

/-- The broadcast row at `(e, j)` is the row at `j`. -/
theorem rowBcast_apply (r : FVec Ideal S512 .f32) (e : Fin 160000) (j : Fin 512) :
    rowBcast r (ix2 e j) = r (ix1 j) :=
  (Cert.LibRowMax.broadcastInDim_1b_ab_apply _ _ e j).trans
    (Cert.LibRowMax.broadcastInDim_b_1b_apply r _ (0 : Fin 1) j)

/-- A `[160000, 1]` column broadcast across the 512 lanes. -/
def colBcast (v : FVec Ideal S160000x1 .f32) : FVec Ideal S160000x512 .f32 :=
  broadcastInDim S160000x512 ![0, 1] bcast_S160000x1_S160000x512_0_1 v

/-- The broadcast column at `(e, j)` is the column's entry in row `e`. -/
theorem colBcast_apply (v : FVec Ideal S160000x1 .f32) (e : Fin 160000) (j : Fin 512) :
    colBcast v (ix2 e j) = v (ix2 e (0 : Fin 1)) :=
  Cert.LibRowMax.broadcastInDim_a1_ab_apply v _ e j

/-! ## The plain product -/

/-- The printed dimension numbers are those of a plain product `[160000, 512] × [512, 512] → [160000, 512]`. -/
theorem refDot_eq_plain :
    dot_S160000x512_S512x512_S160000x512_1_0_0_1_n_n
      = Cert.LibRowMax.plainDims 160000 512 512 dot_S160000x512_S512x512_S160000x512_1_0_0_1_n_n_wf := rfl

/-- The host's product at the printed dimension numbers, at `(e, j)`: the sum over the contracted coordinate. -/
theorem refDot_apply (l : FVec Ideal S160000x512 .f32) (r : FVec Ideal S512x512 .f32) (e : Fin 160000) (j : Fin 512) :
    Host.dotGeneral dot_S160000x512_S512x512_S160000x512_1_0_0_1_n_n none l r (ix2 e j)
      = ∑ k : Fin 512, l (ix2 e k) * r (ix2 k j) := by
  rw [refDot_eq_plain]
  exact Cert.LibRowMax.dotGeneral_plain_apply _ none .single l r e j

/-! ## The two layers -/

/-- The first layer before its activation, as an array. -/
def hiddenArr (efeat sg dg : FVec Ideal S160000x512 .f32) (We : FVec Ideal S512x512 .f32) (b1 : FVec Ideal S512 .f32) :
    FVec Ideal S160000x512 .f32 :=
  addf
    (addf
      (addf
        (Host.dotGeneral dot_S160000x512_S512x512_S160000x512_1_0_0_1_n_n none efeat
          (transpose S512x512 [1, 0] We transposes_S512x512_S512x512_1_0))
        sg)
      dg)
    (rowBcast b1)

/-- The first layer's array at `(e, j)` is the specification's `hidden` of row `e`. -/
theorem hiddenArr_apply (efeat sg dg : FVec Ideal S160000x512 .f32) (We : FVec Ideal S512x512 .f32)
    (b1 : FVec Ideal S512 .f32) (e : Fin 160000) (j : Fin 512) :
    hiddenArr efeat sg dg We b1 (ix2 e j)
      = hidden (fun k => efeat (ix2 e k)) (fun k => sg (ix2 e k)) (fun k => dg (ix2 e k))
          (transpose S512x512 [1, 0] We transposes_S512x512_S512x512_1_0) (fun k => b1 (ix1 k)) j := by
  unfold hiddenArr
  refine (addf_apply _ _ _).trans ?_
  refine congrArg₂ (· + ·) ?_ (rowBcast_apply b1 e j)
  refine (addf_apply _ _ _).trans ?_
  refine congrArg₂ (· + ·) ?_ rfl
  refine (addf_apply _ _ _).trans ?_
  exact congrArg₂ (· + ·) (refDot_apply _ _ e j) rfl

/-- The host's `silu` of an array: the array times one over one plus the exponential of its negation, both ones the
    f32 literal for one broadcast to the array's shape. -/
def siluArr (h : FVec Ideal S160000x512 .f32) : FVec Ideal S160000x512 .f32 :=
  mulf h
    (Host.divf (broadcastInDim S160000x512 ![] bcast_S_S160000x512 (constant (F := Ideal) S_ .f32 0x3F800000#32))
      (addf (broadcastInDim S160000x512 ![] bcast_S_S160000x512 (constant (F := Ideal) S_ .f32 0x3F800000#32))
        (Host.exp (Host.negf h))))

/-- The host's `silu` entry by entry: the entry times its logistic. -/
theorem siluArr_apply (h : FVec Ideal S160000x512 .f32) (i : S160000x512.Idx) :
    siluArr h i = h i * Ideal.logistic (h i) :=
  Cert.LibSilu.host_spelling (h i)

/-- The second layer as an array. -/
def affineArr (efeat sg dg : FVec Ideal S160000x512 .f32) (We : FVec Ideal S512x512 .f32) (b1 : FVec Ideal S512 .f32)
    (W2 : FVec Ideal S512x512 .f32) (b2 : FVec Ideal S512 .f32) : FVec Ideal S160000x512 .f32 :=
  addf
    (Host.dotGeneral dot_S160000x512_S512x512_S160000x512_1_0_0_1_n_n none (siluArr (hiddenArr efeat sg dg We b1))
      (transpose S512x512 [1, 0] W2 transposes_S512x512_S512x512_1_0))
    (rowBcast b2)

/-- Row `e` of the second layer, in the specification's words. -/
abbrev layerRow (efeat sg dg : FVec Ideal S160000x512 .f32) (We : FVec Ideal S512x512 .f32) (b1 : FVec Ideal S512 .f32)
    (W2 : FVec Ideal S512x512 .f32) (b2 : FVec Ideal S512 .f32) (e : Fin 160000) : Row :=
  affine
    (act (hidden (fun k => efeat (ix2 e k)) (fun k => sg (ix2 e k)) (fun k => dg (ix2 e k))
      (transpose S512x512 [1, 0] We transposes_S512x512_S512x512_1_0) (fun k => b1 (ix1 k))))
    (transpose S512x512 [1, 0] W2 transposes_S512x512_S512x512_1_0) (fun k => b2 (ix1 k))

/-- The second layer's array at `(e, j)` is the specification's `affine (act (hidden …))` of row `e`. -/
theorem affineArr_apply (efeat sg dg : FVec Ideal S160000x512 .f32) (We : FVec Ideal S512x512 .f32)
    (b1 : FVec Ideal S512 .f32) (W2 : FVec Ideal S512x512 .f32) (b2 : FVec Ideal S512 .f32) (e : Fin 160000)
    (j : Fin 512) :
    affineArr efeat sg dg We b1 W2 b2 (ix2 e j) = layerRow efeat sg dg We b1 W2 b2 e j := by
  unfold affineArr
  refine (addf_apply _ _ _).trans ?_
  refine congrArg₂ (· + ·) ?_ (rowBcast_apply b2 e j)
  refine (refDot_apply _ _ e j).trans ?_
  refine Finset.sum_congr rfl fun k _ =>
    congrArg (· * transpose S512x512 [1, 0] W2 transposes_S512x512_S512x512_1_0 (ix2 k j)) ?_
  refine (siluArr_apply _ _).trans ?_
  rw [hiddenArr_apply]
  rfl

/-! ## Lane sums, means and the centred array -/

/-- The host's sums along the lanes from the zero word, placed as a column. -/
def sumCol (y : FVec Ideal S160000x512 .f32) : FVec Ideal S160000x1 .f32 :=
  broadcastInDim S160000x1 ![0] bcast_S160000_S160000x1_0
    (Host.reduceAdd y (constant (F := Ideal) S_ .f32 0x00000000#32) reducesTo_S160000x512_S160000_d1 h_S_)

/-- The column of lane sums at `(e, u)`: the sum of row `e`. -/
theorem sumCol_apply (y : FVec Ideal S160000x512 .f32) (e : Fin 160000) (u : Fin 1) :
    sumCol y (ix2 e u) = ∑ d : Fin 512, y (ix2 e d) := by
  unfold sumCol
  refine (broadcastInDim_a_a1_apply _ _ e u).trans ?_
  refine (hostReduceAdd_apply y _ _ _ (ix1 e)).trans ?_
  refine (Ideal.hostReduceAdd_single reducesTo_S160000x512_S160000_d1
    (by decide : S160000x512.Reduces [1] S160000) y _ (ix1 e)).trans ?_
  refine (congrArg (· + _) Ideal.ofBits_zero_f32).trans ?_
  rw [zero_add]
  refine Finset.sum_congr rfl fun d _ => congrArg y (funext fun c => Fin.ext ?_)
  match c with
  | ⟨0, _⟩ => rfl
  | ⟨1, _⟩ => rfl

/-- The column of row means: the lane sums over the literal 512. -/
def meanCol (y : FVec Ideal S160000x512 .f32) : FVec Ideal S160000x1 .f32 :=
  Host.divf (sumCol y)
    (broadcastInDim S160000x1 ![] bcast_S_S160000x1 (constant (F := Ideal) S_ .f32 0x44000000#32))

/-- The column of row means at `(e, u)`: the specification's mean of row `e`. -/
theorem meanCol_apply (y : FVec Ideal S160000x512 .f32) (e : Fin 160000) (u : Fin 1) :
    meanCol y (ix2 e u) = mean (fun k => y (ix2 e k)) := by
  unfold meanCol
  refine (hostDivf_apply _ _ _).trans ?_
  exact congrArg₂ Ideal.div (sumCol_apply y e u) (broadcastInDim_scalar_apply _ _ _)

/-- The array minus its row means broadcast across the lanes. -/
def centredArr (y : FVec Ideal S160000x512 .f32) : FVec Ideal S160000x512 .f32 :=
  subf y (colBcast (meanCol y))

/-- The centred array at `(e, j)`: the specification's centred row `e`. -/
theorem centredArr_apply (y : FVec Ideal S160000x512 .f32) (e : Fin 160000) (j : Fin 512) :
    centredArr y (ix2 e j) = centred (fun k => y (ix2 e k)) j := by
  unfold centredArr
  refine (subf_apply _ _ _).trans ?_
  exact congrArg₂ (· - ·) rfl ((colBcast_apply _ e j).trans (meanCol_apply y e 0))

/-! ## The variance column -/

/-- The variance's divisor as the program writes it: the literal 512 minus the integer zero converted. -/
def divisor : FVec Ideal S_ .f32 :=
  subf (constant (F := Ideal) S_ .f32 0x44000000#32) (sitofp .f32 (constantI S_ 32 0#32))

/-- The divisor is the literal 512. -/
theorem divisor_eq : divisor ix0 = c512 := by
  have h0 : (((0#32 : BitVec 32).toInt : ℝ) : EReal) = 0 := by
    rw [BitVec.toInt_zero, Int.cast_zero, EReal.coe_zero]
  show Ideal.ofBits .f32 0x44000000#32 - (((0#32 : BitVec 32).toInt : ℝ) : EReal) = Ideal.ofBits .f32 0x44000000#32
  rw [h0, sub_zero]

/-- The literal 512 is the real number 512. -/
theorem c512_eq : c512 = ((512 : ℝ) : EReal) := by
  unfold c512
  simp [Ideal.ofBits, Ideal.ieee, -EReal.coe_mul]; norm_num

/-- The divisor is greater than the zero word's value: the comparison's bit is set. -/
theorem divisor_pos_bit : cmpf .ogt divisor (constant (F := Ideal) S_ .f32 0x00000000#32) ix0 = 1#1 := by
  show Ideal.cmp .ogt (divisor ix0) (Ideal.ofBits .f32 0x00000000#32) = 1#1
  rw [divisor_eq, Ideal.ofBits_zero_f32, c512_eq]
  have hpos : (0 : EReal) < ((512 : ℝ) : EReal) := by exact_mod_cast (by norm_num : (0 : ℝ) < 512)
  show BitVec.ofBool (decide ((0 : EReal) < ((512 : ℝ) : EReal))) = 1#1
  rw [decide_eq_true hpos]
  rfl

/-- The column of variances: the lane sums of the centred array's squares over the divisor, selected against the
    quiet-NaN word on the divisor's positivity. -/
def varCol (y : FVec Ideal S160000x512 .f32) : FVec Ideal S160000x1 .f32 :=
  select
    (broadcastInDim S160000x1 ![] bcast_S_S160000x1
      (cmpf .ogt divisor (constant (F := Ideal) S_ .f32 0x00000000#32)))
    (Host.divf (sumCol (mulf (centredArr y) (centredArr y)))
      (broadcastInDim S160000x1 ![] bcast_S_S160000x1 divisor))
    (broadcastInDim S160000x1 ![] bcast_S_S160000x1 (id (constant (F := Ideal) S_ .f32 0x7FC00000#32)))

/-- The column of variances at `(e, u)`: the specification's variance of row `e`. -/
theorem varCol_apply (y : FVec Ideal S160000x512 .f32) (e : Fin 160000) (u : Fin 1) :
    varCol y (ix2 e u) = variance (fun k => y (ix2 e k)) := by
  unfold varCol
  refine (select_apply _ _ _ _).trans ?_
  rw [broadcastInDim_scalar_apply, divisor_pos_bit, select_one]
  refine (hostDivf_apply _ _ _).trans ?_
  refine congrArg₂ Ideal.div ?_ ((broadcastInDim_scalar_apply _ _ _).trans divisor_eq)
  refine (sumCol_apply _ e u).trans ?_
  refine Finset.sum_congr rfl fun d _ => ?_
  refine (mulf_apply _ _ _).trans ?_
  rw [centredArr_apply]

/-! ## The result -/

/-- The reference's edge update is the centred second layer times the reciprocal root of the shifted variance column,
    scaled, shifted, plus the edge features. -/
theorem tail_eq (efeat sg dg : FVec Ideal S160000x512 .f32) (We : FVec Ideal S512x512 .f32) (b1 : FVec Ideal S512 .f32)
    (W2 : FVec Ideal S512x512 .f32) (b2 g b : FVec Ideal S512 .f32) :
    tail (F := Ideal) efeat sg dg We b1 W2 b2 g b
      = addf
          (addf
            (mulf
              (mulf (centredArr (affineArr efeat sg dg We b1 W2 b2))
                (colBcast
                  (Host.rsqrt
                    (addf (varCol (affineArr efeat sg dg We b1 W2 b2))
                      (broadcastInDim S160000x1 ![] bcast_S_S160000x1
                        (constant (F := Ideal) S_ .f32 0x3727C5AC#32))))))
              (rowBcast g))
            (rowBcast b))
          efeat := rfl

/-- The reference's edge update at `(e, j)` is the specification's new feature row of edge `e` at `j`. -/
theorem tail_apply (efeat sg dg : FVec Ideal S160000x512 .f32) (We : FVec Ideal S512x512 .f32) (b1 : FVec Ideal S512 .f32) (W2 : FVec Ideal S512x512 .f32) (b2 g b : FVec Ideal S512 .f32) (e : Fin 160000) (j : Fin 512) :
    tail (F := Ideal) efeat sg dg We b1 W2 b2 g b (ix2 e j)
      = rowOut (fun k => efeat (ix2 e k)) (fun k => sg (ix2 e k)) (fun k => dg (ix2 e k))
          (transpose S512x512 [1, 0] We transposes_S512x512_S512x512_1_0) (transpose S512x512 [1, 0] W2 transposes_S512x512_S512x512_1_0)
          (fun k => b1 (ix1 k)) (fun k => b2 (ix1 k)) (fun k => g (ix1 k)) (fun k => b (ix1 k)) j := by
  rw [tail_eq]
  refine (addf_apply _ _ _).trans ?_
  refine congrArg₂ (· + ·) ?_ rfl
  refine (addf_apply _ _ _).trans ?_
  refine congrArg₂ (· + ·) ?_ (rowBcast_apply b e j)
  refine (mulf_apply _ _ _).trans ?_
  refine congrArg₂ (· * ·) ?_ (rowBcast_apply g e j)
  refine (mulf_apply _ _ _).trans ?_
  refine congrArg₂ (· * ·) ?_ ?_
  · refine (centredArr_apply _ e j).trans ?_
    exact congrArg (centred · j) (funext fun k => affineArr_apply efeat sg dg We b1 W2 b2 e k)
  · refine (colBcast_apply _ e j).trans ?_
    show Ideal.rsqrt
        (varCol (affineArr efeat sg dg We b1 W2 b2) (ix2 e (0 : Fin 1))
          + broadcastInDim S160000x1 ![] bcast_S_S160000x1 (constant (F := Ideal) S_ .f32 0x3727C5AC#32)
              (ix2 e (0 : Fin 1))) = _
    rw [varCol_apply, broadcastInDim_scalar_apply]
    exact congrArg (fun r : Row => Ideal.rsqrt (variance r + cEps))
      (funext fun k => affineArr_apply efeat sg dg We b1 W2 b2 e k)

end Cert.ReferenceIdeal.HandRun

end
-- ==== Proof.Bridge.lean ====
/-
  The two programs' results are one function of the arguments.

  Both compute, for every edge row, the same row update (the specification's `rowOut`) of the same nine inputs:
  the edge-feature row; a row of `nfeat · W_sᵀ` and a row of `nfeat · W_dᵀ` gathered at the same start indices
  (the reference forms the products with the host's contraction, the kernel with the matrix unit block by block —
  the same sum over the 512 input coordinates at every entry); the two transposed edge weights (the kernel also
  changes their float format, the identity on the extended reals); and the four rows, which the reference reads
  from the `[512]` vectors and the kernel from their `[1, 512]` recasts.
-/
import proofs.«123910_j14027363189335_2_alg».proof.Proof.KernelValue
import proofs.«123910_j14027363189335_2_alg».proof.Proof.RefStages
import proofs.«123910_j14027363189335_2_alg».proof.Proof.RefTail
import proofs.«123910_j14027363189335_2_alg».proof.Proof.Gen.ReferenceIdeal
import Idealize.ShloMosaic.Lib.ValueLayout

noncomputable section

namespace Cert.Bridge

open Idealize.ShloMosaic Idealize.ShloMosaic.ValueIdx Cert.EdgeMlp

abbrev S160000x512 : Shape := ⟨2, ![160000, 512]⟩
abbrev S10000x512 : Shape := ⟨2, ![10000, 512]⟩
abbrev S512x512 : Shape := ⟨2, ![512, 512]⟩
abbrev S512 : Shape := ⟨1, ![512]⟩
abbrev S160000 : Shape := ⟨1, ![160000]⟩

/-- The reference's node projection is the kernel's product array: at `(n, j)` both are `Σ_k x (n, k) · Wᵀ (k, j)`. -/
theorem nodeProj_eq (x : S10000x512.Idx → EReal) (W : S512x512.Idx → EReal) :
    Cert.ReferenceIdeal.HandRun.nodeProj (F := Ideal) x W
      = Cert.KernelIdeal.NodeProj.prod x (Cert.KernelIdeal.Boundaries.weightIn W) := by
  funext i
  obtain ⟨n, j, rfl⟩ : ∃ (n : Fin 10000) (j : Fin 512), i = ix2 n j := ⟨i 0, i 1, eq_ix2 i⟩
  unfold Cert.ReferenceIdeal.HandRun.nodeProj
  refine (Cert.LibRowMax.dotGeneral_plain_apply (a := 10000) (k := 512) (b := 512)
    Cert.ReferenceIdeal.Facts₀.dot_S10000x512_S512x512_S10000x512_1_0_0_1_n_n_wf none _ x _ n j).trans ?_
  rfl

/-- The two programs compute the gathers' start indices by the same operations. -/
theorem startIdx_eq (s : S160000.Idx → BitVec 32) :
    Cert.ReferenceIdeal.HandRun.startIdx (F := Ideal) s = Cert.KernelIdeal.Boundaries.startIdx s := rfl

/-- A `[512]` vector recast as `[1, 512]` reads, in its one row, the vector. -/
theorem rowIn_apply (v : S512.Idx → EReal) :
    (fun k : Fin 512 => Cert.KernelIdeal.Boundaries.rowIn v (ix2 (0 : Fin 1) k)) = fun k => v (ix1 k) :=
  funext fun k => shapeCast_a_1a_apply v _ (0 : Fin 1) k

/-- The reference's result and the kernel's result are the same function of the twelve arguments. -/
theorem result_eq (a0 : S160000x512.Idx → EReal) (a1 : S10000x512.Idx → EReal) (a2 a3 : S160000.Idx → BitVec 32)
    (a4 a5 a6 : S512x512.Idx → EReal) (a7 : S512.Idx → EReal) (a8 : S512x512.Idx → EReal) (a9 a10 a11 : S512.Idx → EReal) :
    Cert.ReferenceIdeal.HandRun.result (F := Ideal) a0 a1 a2 a3 a4 a5 a6 a7 a8 a9 a10 a11
      = Cert.KernelIdeal.Value.result a0 a1 a2 a3 a4 a5 a6 a7 a8 a9 a10 a11 := by
  funext i
  obtain ⟨e, j, rfl⟩ : ∃ (e : Fin 160000) (j : Fin 512), i = ix2 e j := ⟨i 0, i 1, eq_ix2 i⟩
  unfold Cert.ReferenceIdeal.HandRun.result Cert.KernelIdeal.Value.result
  rw [Cert.ReferenceIdeal.HandRun.tail_apply, nodeProj_eq, nodeProj_eq, startIdx_eq, startIdx_eq]
  unfold Cert.KernelIdeal.EdgeArray.edgeOut
  rw [rowIn_apply, rowIn_apply, rowIn_apply, rowIn_apply]
  rfl

end Cert.Bridge

end
-- ==== Proof.lean ====
/-
  The certificate of one message-passing block's edge update: a two-kernel program (node projections by the matrix
  unit, a host row gather, a fused per-edge layer) against its plain array reference, on the extended reals.

  * The three frames. The word-level kernel program and its idealization run, fault-free, with their arguments
    unchanged (the generated frame of the four-segment program). The reference's frame is its run with the result
    dropped.
  * The idealization rewrote nothing, so it preserves the program trivially.
  * The two idealized programs end with equal results. The kernel program's result array is, edge row by edge row,
    the specification's row update of the edge features, of one gathered row of each node projection, of the
    transposed weights and of the bias, scale and shift rows; the reference's result is the same row update of the
    same inputs. No finiteness of the inputs is used: both sides form the same sums in the same grouping, and a
    change of float format is the identity on the extended reals. The second result is an argument, unchanged.
-/
import proofs.«123910_j14027363189335_2_alg».proof.Defs
import proofs.«123910_j14027363189335_2_alg».proof.Proof.Gen.Kernel
import proofs.«123910_j14027363189335_2_alg».proof.Proof.Gen.Kernel.Frame
import proofs.«123910_j14027363189335_2_alg».proof.Proof.Gen.KernelIdeal
import proofs.«123910_j14027363189335_2_alg».proof.Proof.Gen.KernelIdeal.Frame
import proofs.«123910_j14027363189335_2_alg».proof.Proof.Gen.ReferenceIdeal
import proofs.«123910_j14027363189335_2_alg».proof.Proof.Gen.Pre_finite_inputs
import proofs.«123910_j14027363189335_2_alg».proof.Proof.KernelValue
import proofs.«123910_j14027363189335_2_alg».proof.Proof.RefRun
import proofs.«123910_j14027363189335_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- Both idealized programs end with the first result at the kernel's function of the arguments and the second result
    at the node-feature argument. -/
theorem algebraic : Cert.algebraic_KernelIdeal_ReferenceIdeal := by
  intro m ρ m' ρ' _ hagree
  refine ⟨fun c => Cert.KernelIdeal.Value.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    fun c => m ((c.tc : Thread Cert.KernelIdeal.nD Cert.KernelIdeal.τ).loc Cert.KernelIdeal.main_arg1), ?_, ?_⟩
  · exact (θ_run Cert.KernelIdeal.defs _ _).mono (fun _ h c => ⟨(h c).1, (h c).2.2.1, (h c).2⟩)
      (Cert.KernelIdeal.Value.run m ρ)
  · refine (θ_run Cert.ReferenceIdeal.defs _ _).mono (fun _ h c => ⟨(h c).1.trans ?_, (h c).2.2.1.trans (hagree c).2.1, (h c).2⟩)
      (Cert.ReferenceIdeal.HandRun.run (F := Ideal) m' ρ')
    obtain ⟨e0, e1, e2, e3, e4, e5, e6, e7, e8, e9, e10, e11⟩ := hagree c
    rw [e0, e1, e2, e3, e4, e5, e6, e7, e8, e9, e10, e11]
    exact Cert.Bridge.result_eq _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
